-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x2048x80 : Shape := ⟨3, ![16, 2048, 80]⟩
abbrev S16 : Shape := ⟨1, ![16]⟩
abbrev S_ : Shape := ⟨0, ![]⟩

class Facts : Prop where
  bcast_S_S16x2048x80 : S_.BroadcastsInDim S16x2048x80 (![] : Fin 0 → Fin S16x2048x80.rank)
  reducesTo_S16x2048x80_S_d0_1_2 : S16x2048x80.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x2048x80 .f32) (main_arg1 : IVec S16 32) : IVec S_ 1 :=
  let main_v0 : FVec F S16x2048x80 .f32 := Host.absf main_arg0
  let main_cst : FVec F S_ .f32 := constant S_ .f32 0x7F800000#32
  let main_v1 : FVec F S16x2048x80 .f32 := broadcastInDim S16x2048x80 ![] bcast_S_S16x2048x80 main_cst
  let main_v2 : IVec S16x2048x80 1 := cmpf .olt main_v0 main_v1
  let main_c : IVec S_ 1 := constantI S_ 1 1#1
  let main_v3 : IVec S_ 1 := (fun x v => Host.reduce IntOp.andi x v reducesTo_S16x2048x80_S_d0_1_2 h_S_) main_v2 main_c
  let main_c_0 : IVec S_ 32 := constantI S_ 32 0#32
  let main_v4 : IVec S16 32 := broadcastInDim S16 ![] bcast_S_S16 main_c_0
  let main_v5 : IVec S16 1 := cmpi .sge main_arg1 main_v4
  let main_c_1 : IVec S_ 32 := constantI S_ 32 2047#32
  let main_v6 : IVec S16 32 := broadcastInDim S16 ![] bcast_S_S16 main_c_1
  let main_v7 : IVec S16 1 := cmpi .sle main_arg1 main_v6
  let main_v8 : IVec S16 1 := andi main_v5 main_v7
  let main_c_2 : IVec S_ 1 := constantI S_ 1 1#1
  let main_v9 : IVec S_ 1 := (fun x v => Host.reduce IntOp.andi x v reducesTo_S16_S_d0 h_S_) main_v8 main_c_2
  let main_v10 : IVec S_ 1 := andi main_v3 main_v9
  main_v10
-- ==== Kernel.lean ====
abbrev S16x2048x80 : Shape := ⟨3, ![16, 2048, 80]⟩
abbrev S16 : Shape := ⟨1, ![16]⟩
abbrev S256x80 : Shape := ⟨2, ![256, 80]⟩
abbrev S_ : Shape := ⟨0, ![]⟩
abbrev S1x256x80 : Shape := ⟨3, ![1, 256, 80]⟩

abbrev nBuf : Table → Nat
  | .hbm => 4
  | .local .scVector .vmem => 3
  | _ => 0

abbrev bufTy : (tb : Table) → Fin (nBuf tb) → BufTy
  | .hbm, ⟨0, _⟩ => ⟨S16x2048x80, .f32⟩
  | .hbm, ⟨1, _⟩ => ⟨S16, .i32⟩
  | .hbm, ⟨2, _⟩ => ⟨S16x2048x80, .f32⟩
  | .hbm, ⟨3, _⟩ => ⟨S16, .i32⟩
  | .local .scVector .vmem, ⟨0, _⟩ => ⟨S256x80, .f32⟩
  | .local .scVector .vmem, ⟨1, _⟩ => ⟨S256x80, .f32⟩
  | .local .scVector .vmem, ⟨2, _⟩ => ⟨S16, .i32⟩
  | _, _ => ⟨S16x2048x80, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v29 c0_i32_11
  let c0_i32_12 : BitVec 32 := 0#32
  ![v18.toNat, v30.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  squeezes_S1x256x80_S256x80 : S1x256x80.Squeezes S256x80
  hcc0_scratch3 : 0 + S_.numel ≤ 6
  hcc0_scratch4 : 1 + S_.numel ≤ 6
  hcc0_scratch5 : 2 + S_.numel ≤ 6
  hcc0_scratch6 : 3 + S_.numel ≤ 6
  hcc0_scoped0 : 4 + S_.numel ≤ 6
  hcc0_scoped1 : 5 + S_.numel ≤ 6
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (256 * r.val))) a + S1x256x80.size a ≤ S16x2048x80.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0
abbrev cc0_scoped1 : DmaSems sig S_ := SemArray.consecutive 5 S_ hcc0_scoped1

class Facts : Prop extends Facts₀ where

variable [Facts]
-- ==== ReferenceIdeal.lean ====
abbrev S16x2048x80 : Shape := ⟨3, ![16, 2048, 80]⟩
abbrev S16 : Shape := ⟨1, ![16]⟩

abbrev nBuf : Space → Nat
  | .hbm => 2
  | .vmem => 0
  | .smem => 0
  | _ => 0

abbrev bufTy : (tb : Table) → Fin (tcTables nBuf tb) → BufTy
  | .hbm, ⟨0, _⟩ => ⟨S16x2048x80, .f32⟩
  | .hbm, ⟨1, _⟩ => ⟨S16, .i32⟩
  | _, _ => ⟨S16x2048x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]

class Facts₀ : Prop where

variable [Facts₀]

class Facts : Prop extends Facts₀ where

variable [Facts]
-- ==== Proof.BitsSetup.lean ====
/-
  A tile's view of the copy kernel, shared by the body's proof and the launch.

  The kernel copies a [16, 2048, 80] array: tile (core c, subcore s) owns batch row s, time steps
  c * 1024 .. c * 1024 + 1023, and moves them in four chunks of 256 time steps through two scratch
  buffers; tile (0, 0) also copies the 16 lengths. Here: the program as the launch theorem reads it,
  the ghost state (the handshakes' rounds beside the transfers' counters: every semaphore of a tile
  carries one transfer at a time, so no schedule is needed), the arrays' locations, chunk r of a tile
  as the program slices it, the closed form of the chunk's offsets and what it means for an index to
  lie in a chunk, and a tile's scoped semaphores and scratch buffers taken out of its scoped storage.
-/
import proofs.«216305_g5669356832350_cont_9to1_m_939_18_alg».proof.Defs
import Idealize.ShloMosaic.Lib.SparseCore.Launch
import Idealize.ShloMosaic.Lib.StableHlo.Run
import Idealize.ShloMosaic.Lib.Pipeline.Kit
import Idealize.ShloMosaic.Lib.Tactic
import proofs.«216305_g5669356832350_cont_9to1_m_939_18_alg».proof.Proof.Gen.Kernel

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input array, the input lengths, the output array, the output lengths, as locations of device d. -/
abbrev aLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0_0
abbrev pLoc (d : Dev nD) : Loc nD τ sig := (SparseCore.T d).loc main_v0_1

abbrev aW : Memref sig .scVector .hbm S16x2048x80 .f32 := Memref.whole main_arg0_scv
abbrev lW : Memref sig .scVector .hbm S16 .i32 := Memref.whole main_arg1_scv
abbrev oW : Memref sig .scVector .hbm S16x2048x80 .f32 := Memref.whole main_v0_0_scv
abbrev pW : Memref sig .scVector .hbm S16 .i32 := Memref.whole main_v0_1_scv
/-- A tile's two staging buffers and its lengths buffer. -/
abbrev b0W : Memref sig .scVector .vmem S256x80 .f32 := Memref.whole cc0_scratch0
abbrev b1W : Memref sig .scVector .vmem S256x80 .f32 := Memref.whole cc0_scratch1
abbrev lbW : Memref sig .scVector .vmem S16 .i32 := Memref.whole cc0_scratch2

/-! ## Tiles and their chunks -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Chunk r of tile L: one batch row, 256 time steps, all 80 features. -/
abbrev chunkRect (L : grid0.Coords) (r : Fin 4) : Rect S16x2048x80 :=
  Rect.unit (s := S16x2048x80) (k0_off1 L (BitVec.ofNat 32 (256 * r.val))) S1x256x80.size (k0_off1_inb L r)
abbrev aChunk (L : grid0.Coords) (r : Fin 4) : Memref sig .scVector .hbm S256x80 .f32 :=
  ((aW : Memref sig .scVector .hbm S16x2048x80 .f32).slice (chunkRect L r) (fun _ => rfl)).squeeze S256x80 squeezes_S1x256x80_S256x80
abbrev oChunk (L : grid0.Coords) (r : Fin 4) : Memref sig .scVector .hbm S256x80 .f32 :=
  ((oW : Memref sig .scVector .hbm S16x2048x80 .f32).slice (chunkRect L r) (fun _ => rfl)).squeeze S256x80 squeezes_S1x256x80_S256x80
/-- The indices of the big arrays that chunk r of tile L covers. -/
abbrev chunkSet (L : grid0.Coords) (r : Fin 4) : Finset S16x2048x80.Idx := (aChunk L r).view.set

theorem set_oChunk (L : grid0.Coords) (r : Fin 4) : (oChunk L r).view.set = chunkSet L r := by
  show (((oW : Memref sig .scVector .hbm S16x2048x80 .f32).view.slice (chunkRect L r)).reshape S256x80 squeezes_S1x256x80_S256x80.numel_eq).set
    = (((aW : Memref sig .scVector .hbm S16x2048x80 .f32).view.slice (chunkRect L r)).reshape S256x80 squeezes_S1x256x80_S256x80.numel_eq).set
  rw [View.set_reshape, View.set_reshape]
  rfl

/-- The chunk's offsets: batch row s, time step c * 1024 + 256 r, feature 0. -/
theorem off_eq : ∀ (L : grid0.Coords) (r : Fin 4) (a : Fin 3),
    k0_off1 L (BitVec.ofNat 32 (256 * r.val)) a = (![(L 1).val, (L 0).val * 1024 + 256 * r.val, 0] : Fin 3 → Nat) a := by
  decide +kernel

theorem chunkSet_eq (L : grid0.Coords) (r : Fin 4) : chunkSet L r = (chunkRect L r).set := by
  show (((View.whole (main_arg0_scv : Ref sig .scVector)).slice (chunkRect L r)).reshape S256x80 squeezes_S1x256x80_S256x80.numel_eq).set = _
  rw [View.set_reshape, View.set_slice_whole]

/-- An index lies in chunk r of tile (c, s) iff its batch row is s and its time step is in the chunk's 256. -/
theorem mem_chunkSet (L : grid0.Coords) (r : Fin 4) (j : S16x2048x80.Idx) :
    j ∈ chunkSet L r ↔ ((j 0).val = (L 1).val ∧ (L 0).val * 1024 + 256 * r.val ≤ (j 1).val ∧ (j 1).val < (L 0).val * 1024 + 256 * r.val + 256) := by
  rw [chunkSet_eq, Rect.mem_set_unit]
  constructor
  · intro h
    have h0 := h 0; have h1 := h 1
    rw [off_eq] at h0 h1
    have e0 : S1x256x80.size (0 : Fin 3) = 1 := rfl
    have e1 : S1x256x80.size (1 : Fin 3) = 256 := rfl
    rw [e0] at h0; rw [e1] at h1
    simp only [Matrix.cons_val_zero, Matrix.cons_val_one, Matrix.head_cons] at h0 h1
    omega
  · rintro ⟨h0, h1, h2⟩ a
    rw [off_eq]
    match a with
    | 0 => show (L 1).val ≤ (j 0).val ∧ (j 0).val < (L 1).val + 1; omega
    | 1 => show (L 0).val * 1024 + 256 * r.val ≤ (j 1).val ∧ (j 1).val < (L 0).val * 1024 + 256 * r.val + 256; omega
    | 2 => show 0 ≤ (j 2).val ∧ (j 2).val < 0 + 80; exact ⟨Nat.zero_le _, by have := (j 2).isLt; simpa using this⟩

/-! ## A tile's scoped storage -/

abbrev semI0 : DmaSem sig := cc0_scratch3.sem
abbrev semI1 : DmaSem sig := cc0_scratch4.sem
abbrev semO0 : DmaSem sig := cc0_scratch5.sem
abbrev semO1 : DmaSem sig := cc0_scratch6.sem
abbrev semL0 : DmaSem sig := cc0_scoped0.sem
abbrev semL1 : DmaSem sig := cc0_scoped1.sem
abbrev cell (thr : Thread nD τ) (s : DmaSem sig) : GSem nD τ sig := (thr, .dma s)

def sixCells (thr : Thread nD τ) : Finset (GSem nD τ sig) :=
  {cell thr semI0, cell thr semI1, cell thr semO0, cell thr semO1, cell thr semL0, cell thr semL1}

theorem sixCells_sub (d : Dev nD) (c : Fin τ.nSC) (i : Fin τ.nSub) : sixCells (V d c i) ⊆ ownCells (V d c i) := by
  intro g hg
  simp only [sixCells, Finset.mem_insert, Finset.mem_singleton] at hg
  rcases hg with rfl | rfl | rfl | rfl | rfl | rfl <;>
    exact mem_ownCells.mpr ⟨rfl, by show (SemLoc.dma _ : SemLoc sig).isScoped .scVector = true; decide⟩

theorem ownSems0_V (d : Dev nD) (c : Fin τ.nSC) (i : Fin τ.nSub) :
    (ownSems0 (V d c i) : sProp 𝕄)
      = iprop((semVal (cell (V d c i) semI0) 0 ∗ semVal (cell (V d c i) semI1) 0 ∗ semVal (cell (V d c i) semO0) 0
          ∗ semVal (cell (V d c i) semO1) 0 ∗ semVal (cell (V d c i) semL0) 0 ∗ semVal (cell (V d c i) semL1) 0)
          ∗ bigSep (ownCells (V d c i) \ sixCells (V d c i)) fun g => semVal g 0) := by
  unfold SparseCore.Cfg.ownSems0
  rw [SparseCore.bigSep_sdiff_split' (sixCells_sub d c i)]
  unfold sixCells
  rw [SparseCore.bigSep_insert' (by simp [cell]; decide), SparseCore.bigSep_insert' (by simp [cell]; decide),
    SparseCore.bigSep_insert' (by simp [cell]; decide), SparseCore.bigSep_insert' (by simp [cell]; decide),
    SparseCore.bigSep_insert' (by simp [cell]; decide), bigSep_singleton]

def threeRefs (c : Fin τ.nSC) (i : Fin τ.nSub) : Finset (DevRef τ sig) :=
  {(Proc.scVector c i).devRef cc0_scratch0, (Proc.scVector c i).devRef cc0_scratch1, (Proc.scVector c i).devRef cc0_scratch2}

theorem threeRefs_sub (c : Fin τ.nSC) (i : Fin τ.nSub) : threeRefs c i ⊆ ownRefs (τ := τ) (.scVector c i) := by
  intro b hb
  simp only [threeRefs, Finset.mem_insert, Finset.mem_singleton] at hb
  rcases hb with rfl | rfl | rfl <;> exact SparseCore.Cfg.mem_ownRefs_of_owner rfl

theorem ownBufs_V (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f))
          ∗ bigSep (ownRefs (τ := τ) (.scVector c i) \ threeRefs c i) fun b => iprop(∃ f, ((d, b) : Loc nD τ sig) ↦{fullShare} f)) := by
  unfold SparseCore.Cfg.ownBufs
  refine (SparseCore.bigSep_sdiff_split' (threeRefs_sub c i)).trans ?_
  unfold threeRefs
  rw [SparseCore.bigSep_insert' (by
      simp only [Finset.mem_insert, Finset.mem_singleton, not_or]
      exact ⟨fun e => absurd (Proc.devRef_injective _ e) (show (cc0_scratch0 : Ref sig .scVector) ≠ cc0_scratch1 by decide),
        fun e => absurd (Proc.devRef_injective _ e) (show (cc0_scratch0 : Ref sig .scVector) ≠ cc0_scratch2 by decide)⟩),
    SparseCore.bigSep_insert' (by
      simp only [Finset.mem_singleton]
      exact fun e => absurd (Proc.devRef_injective _ e) (show (cc0_scratch1 : Ref sig .scVector) ≠ cc0_scratch2 by decide)),
    bigSep_singleton]

end Cert.Proof.BitsSide

end
-- ==== Proof.BitsBody.lean ====
/-
  One tile's task: the body of the copy kernel at a symbolic tile.

  Tile (c, s) is handed the four chunks of its 1024 time steps of batch row s, of the input (to read)
  and of the output (to write), and, if it is tile (0, 0), both lengths arrays. It copies chunk k
  into staging buffer k mod 2 and from there into the output's chunk k, two chunks in flight at a
  time, each of its semaphores carrying one transfer at a time, a buffer never touched while a
  transfer on it is pending. It hands back the input chunks unchanged and every output chunk holding,
  index by index, what the input holds there; tile (0, 0) also the output lengths equal to the input
  lengths.
-/
import proofs.«216305_g5669356832350_cont_9to1_m_939_18_alg».proof.Proof.BitsSetup
import proofs.«216305_g5669356832350_cont_9to1_m_939_18_alg».proof.Proof.Gen.Kernel.Skeleton

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a tile is handed, and what it hands back -/

/-- Tile (0, 0): the one that also copies the lengths. -/
abbrev isFirst (L : grid0.Coords) : Prop := (L 0).val = 0 ∧ (L 1).val = 0

/-- The input's contents, read as contents of the output array (the two arrays have one type). -/
abbrev aAsO (d : Dev nD) : Buf (Elt F) (oLoc d) := m (aLoc d)
abbrev lAsP (d : Dev nD) : Buf (Elt F) (pLoc d) := m (lLoc d)

def tileIn (d : Dev nD) (L : grid0.Coords) : sProp 𝕄 :=
  iprop(((aLoc d ↦[chunkSet L 0]{fullShare} m (aLoc d)) ∗ (aLoc d ↦[chunkSet L 1]{fullShare} m (aLoc d))
      ∗ (aLoc d ↦[chunkSet L 2]{fullShare} m (aLoc d)) ∗ (aLoc d ↦[chunkSet L 3]{fullShare} m (aLoc d)))
    ∗ ((oLoc d ↦[chunkSet L 0]{fullShare} m (oLoc d)) ∗ (oLoc d ↦[chunkSet L 1]{fullShare} m (oLoc d))
      ∗ (oLoc d ↦[chunkSet L 2]{fullShare} m (oLoc d)) ∗ (oLoc d ↦[chunkSet L 3]{fullShare} m (oLoc d)))
    ∗ (if isFirst L then iprop((lLoc d ↦{fullShare} m (lLoc d)) ∗ (pLoc d ↦{fullShare} m (pLoc d))) else iprop(emp)))

def tileOut (d : Dev nD) (L : grid0.Coords) : sProp 𝕄 :=
  iprop(((aLoc d ↦[chunkSet L 0]{fullShare} m (aLoc d)) ∗ (aLoc d ↦[chunkSet L 1]{fullShare} m (aLoc d))
      ∗ (aLoc d ↦[chunkSet L 2]{fullShare} m (aLoc d)) ∗ (aLoc d ↦[chunkSet L 3]{fullShare} m (aLoc d)))
    ∗ ((oLoc d ↦[chunkSet L 0]{fullShare} aAsO m d) ∗ (oLoc d ↦[chunkSet L 1]{fullShare} aAsO m d)
      ∗ (oLoc d ↦[chunkSet L 2]{fullShare} aAsO m d) ∗ (oLoc d ↦[chunkSet L 3]{fullShare} aAsO m d))
    ∗ (if isFirst L then iprop((lLoc d ↦{fullShare} m (lLoc d)) ∗ (pLoc d ↦{fullShare} lAsP m d)) else iprop(emp)))

instance tileIn_storable (d : Dev nD) (L : grid0.Coords) : BI.Storable (upEmb : UEmb _ 𝕄) (tileIn m d L) := by
  unfold tileIn; split <;> infer_instance
instance tileOut_storable (d : Dev nD) (L : grid0.Coords) : BI.Storable (upEmb : UEmb _ 𝕄) (tileOut m d L) := by
  unfold tileOut; split <;> infer_instance

variable [FloatOps F]

section Tile

variable (d : Dev nD) (L : grid0.Coords)

/-- The output's chunk, held as the program's own slice of the output addresses it, is the output array on the chunk's indices. -/
theorem pts_oChunk (r : Fin 4) (f : Buf (Elt F) (oLoc d)) :
    ((oChunk L r).view.loc (V d (cV L) (jV L)) ↦[(oChunk L r).view.set]{fullShare} f : sProp 𝕄) = oLoc d ↦[chunkSet L r]{fullShare} f := by
  rw [set_oChunk]

/-- Chunk memrefs spelt as the program prints them: the offset word a literal. -/
abbrev aLit (w : BitVec 32) (h : ∀ a, (k0_off1 L w) a + S1x256x80.size a ≤ S16x2048x80.size a) : Memref sig .scVector .hbm S256x80 .f32 :=
  ((aW : Memref sig .scVector .hbm S16x2048x80 .f32).slice (Rect.unit (s := S16x2048x80) (k0_off1 L w) S1x256x80.size h) (fun _ => rfl)).squeeze S256x80 squeezes_S1x256x80_S256x80
abbrev oLit (w : BitVec 32) (h : ∀ a, (k0_off1 L w) a + S1x256x80.size a ≤ S16x2048x80.size a) : Memref sig .scVector .hbm S256x80 .f32 :=
  ((oW : Memref sig .scVector .hbm S16x2048x80 .f32).slice (Rect.unit (s := S16x2048x80) (k0_off1 L w) S1x256x80.size h) (fun _ => rfl)).squeeze S256x80 squeezes_S1x256x80_S256x80

abbrev heldA (w : BitVec 32) (h : ∀ a, (k0_off1 L w) a + S1x256x80.size a ≤ S16x2048x80.size a) (f : Buf (Elt F) (aLoc d)) : sProp 𝕄 :=
  (aLit L w h).view.loc (V d (cV L) (jV L)) ↦[(aLit L w h).view.set]{fullShare} f
abbrev heldO (w : BitVec 32) (h : ∀ a, (k0_off1 L w) a + S1x256x80.size a ≤ S16x2048x80.size a) (f : Buf (Elt F) (oLoc d)) : sProp 𝕄 :=
  (oLit L w h).view.loc (V d (cV L) (jV L)) ↦[(oLit L w h).view.set]{fullShare} f

theorem pts_a0 (f : Buf (Elt F) (aLoc d)) : (heldA d L 0#32 (k0_off1_inb L 0) f : sProp 𝕄) = aLoc d ↦[chunkSet L 0]{fullShare} f := rfl
theorem pts_a1 (f : Buf (Elt F) (aLoc d)) : (heldA d L 256#32 (k0_off1_inb L 1) f : sProp 𝕄) = aLoc d ↦[chunkSet L 1]{fullShare} f := rfl
theorem pts_a2 (f : Buf (Elt F) (aLoc d)) : (heldA d L 512#32 (k0_off1_inb L 2) f : sProp 𝕄) = aLoc d ↦[chunkSet L 2]{fullShare} f := rfl
theorem pts_a3 (f : Buf (Elt F) (aLoc d)) : (heldA d L 768#32 (k0_off1_inb L 3) f : sProp 𝕄) = aLoc d ↦[chunkSet L 3]{fullShare} f := rfl
theorem pts_o0 (f : Buf (Elt F) (oLoc d)) : (heldO d L 0#32 (k0_off1_inb L 0) f : sProp 𝕄) = oLoc d ↦[chunkSet L 0]{fullShare} f := by
  show ((oChunk L 0).view.loc (V d (cV L) (jV L)) ↦[(oChunk L 0).view.set]{fullShare} f : sProp 𝕄) = _; rw [set_oChunk]
theorem pts_o1 (f : Buf (Elt F) (oLoc d)) : (heldO d L 256#32 (k0_off1_inb L 1) f : sProp 𝕄) = oLoc d ↦[chunkSet L 1]{fullShare} f := by
  show ((oChunk L 1).view.loc (V d (cV L) (jV L)) ↦[(oChunk L 1).view.set]{fullShare} f : sProp 𝕄) = _; rw [set_oChunk]
theorem pts_o2 (f : Buf (Elt F) (oLoc d)) : (heldO d L 512#32 (k0_off1_inb L 2) f : sProp 𝕄) = oLoc d ↦[chunkSet L 2]{fullShare} f := by
  show ((oChunk L 2).view.loc (V d (cV L) (jV L)) ↦[(oChunk L 2).view.set]{fullShare} f : sProp 𝕄) = _; rw [set_oChunk]
theorem pts_o3 (f : Buf (Elt F) (oLoc d)) : (heldO d L 768#32 (k0_off1_inb L 3) f : sProp 𝕄) = oLoc d ↦[chunkSet L 3]{fullShare} f := by
  show ((oChunk L 3).view.loc (V d (cV L) (jV L)) ↦[(oChunk L 3).view.set]{fullShare} f : sProp 𝕄) = _; rw [set_oChunk]

/-- The scratch buffers, held whole through their memrefs. -/
theorem pts_b0 (f : Buf (Elt F) ((V d (cV L) (jV L)).loc cc0_scratch0)) :
    ((b0W : Memref sig .scVector .vmem S256x80 .f32).view.loc (V d (cV L) (jV L)) ↦{fullShare} f : sProp 𝕄) = (V d (cV L) (jV L)).loc cc0_scratch0 ↦{fullShare} f := rfl
theorem pts_b1 (f : Buf (Elt F) ((V d (cV L) (jV L)).loc cc0_scratch1)) :
    ((b1W : Memref sig .scVector .vmem S256x80 .f32).view.loc (V d (cV L) (jV L)) ↦{fullShare} f : sProp 𝕄) = (V d (cV L) (jV L)).loc cc0_scratch1 ↦{fullShare} f := rfl
theorem pts_lb (f : Buf (Elt F) ((V d (cV L) (jV L)).loc cc0_scratch2)) :
    ((lbW : Memref sig .scVector .vmem S16 .i32).view.loc (V d (cV L) (jV L)) ↦{fullShare} f : sProp 𝕄) = (V d (cV L) (jV L)).loc cc0_scratch2 ↦{fullShare} f := rfl

/-- The kernel's test "this is tile 0": the word it computes from the tile's coordinates is 1 exactly at tile (0, 0). -/
theorem cond_iff : ∀ L : grid0.Coords,
    ((Scalar.cmpi .ne (Scalar.extui (Scalar.cmpi .eq (Scalar.addi (Scalar.muli (BitVec.ofNat 32 (L 1).val) 2#32) (BitVec.ofNat 32 (L 0).val)) 0#32) : BitVec 32) 0#32 = 1#1)
      ↔ ((L 0).val = 0 ∧ (L 1).val = 0)) := by
  decide +kernel

theorem pts_l (f : Buf (Elt F) (lLoc d)) :
    ((lW : Memref sig .scVector .hbm S16 .i32).view.loc (V d (cV L) (jV L)) ↦{fullShare} f : sProp 𝕄) = lLoc d ↦{fullShare} f := rfl
theorem pts_p (f : Buf (Elt F) (pLoc d)) :
    ((pW : Memref sig .scVector .hbm S16 .i32).view.loc (V d (cV L) (jV L)) ↦{fullShare} f : sProp 𝕄) = pLoc d ↦{fullShare} f := rfl

/-! ## The value of a copied chunk -/

/-- What the staging buffer delivers: the input's chunk, read entry by entry, whatever the buffer held before. -/
theorem pay_b0 (w : BitVec 32) (h : ∀ a, (k0_off1 L w) a + S1x256x80.size a ≤ S16x2048x80.size a)
    (fb : Buf (Elt F) ((V d (cV L) (jV L)).loc cc0_scratch0)) (y : S256x80.Idx) :
    ReadAs.same.apply (View.read (Elt F) (b0W : Memref sig .scVector .vmem S256x80 .f32).view
        (View.write (Elt F) (b0W : Memref sig .scVector .vmem S256x80 .f32).view fb
          (ReadAs.same.apply (View.read (Elt F) (aLit L w h).view (m (aLoc d)))) Finset.univ)) y
      = m (aLoc d) ((aLit L w h).view.emb y) := by
  show View.read (Elt F) (View.whole cc0_scratch0) (View.write (Elt F) (View.whole cc0_scratch0) fb
    (View.read (Elt F) (aLit L w h).view (m (aLoc d))) Finset.univ) y = _
  rw [View.write_whole_univ, View.read_whole]
  exact (View.read_apply _ _).trans (cast_eq _ _)
theorem pay_b1 (w : BitVec 32) (h : ∀ a, (k0_off1 L w) a + S1x256x80.size a ≤ S16x2048x80.size a)
    (fb : Buf (Elt F) ((V d (cV L) (jV L)).loc cc0_scratch1)) (y : S256x80.Idx) :
    ReadAs.same.apply (View.read (Elt F) (b1W : Memref sig .scVector .vmem S256x80 .f32).view
        (View.write (Elt F) (b1W : Memref sig .scVector .vmem S256x80 .f32).view fb
          (ReadAs.same.apply (View.read (Elt F) (aLit L w h).view (m (aLoc d)))) Finset.univ)) y
      = m (aLoc d) ((aLit L w h).view.emb y) := by
  show View.read (Elt F) (View.whole cc0_scratch1) (View.write (Elt F) (View.whole cc0_scratch1) fb
    (View.read (Elt F) (aLit L w h).view (m (aLoc d))) Finset.univ) y = _
  rw [View.write_whole_univ, View.read_whole]
  exact (View.read_apply _ _).trans (cast_eq _ _)

/-- A landed output chunk holds, at each of its indices, the input's entry at that index. -/
theorem out_chunk_eq (w : BitVec 32) (h : ∀ a, (k0_off1 L w) a + S1x256x80.size a ≤ S16x2048x80.size a)
    (P : S256x80.Idx → Elt F .f32) (hP : ∀ y, P y = m (aLoc d) ((aLit L w h).view.emb y)) :
    ∀ i ∈ (oLit L w h).view.set, (oLit L w h).view.writes (Elt F) (m (oLoc d)) [⟨Rect.whole S256x80, P⟩] i = aAsO m d i := by
  intro i hi
  obtain ⟨y, -, rfl⟩ := Finset.mem_map.mp hi
  have h1 := View.read_writes_cons_emb (oLit L w h).view (m (oLoc d)) (Rect.whole S256x80) P [] y
  rw [Rect.emb_whole_apply] at h1
  have h2 : (oLit L w h).view.read (Elt F) ((oLit L w h).view.writes (Elt F) (m (oLoc d)) [⟨Rect.whole S256x80, P⟩]) y
      = (oLit L w h).view.writes (Elt F) (m (oLoc d)) [⟨Rect.whole S256x80, P⟩] ((oLit L w h).view.emb y) :=
    (View.read_apply _ _).trans (cast_eq _ _)
  exact (h2.symm.trans h1).trans (hP y)

theorem heldO_landed (w : BitVec 32) (h : ∀ a, (k0_off1 L w) a + S1x256x80.size a ≤ S16x2048x80.size a)
    (P : S256x80.Idx → Elt F .f32) (hP : ∀ y, P y = m (aLoc d) ((aLit L w h).view.emb y)) :
    (heldO d L w h ((oLit L w h).view.writes (Elt F) (m (oLoc d)) [⟨Rect.whole S256x80, P⟩]) : sProp 𝕄) = heldO d L w h (aAsO m d) :=
  pointsTo_congr (out_chunk_eq m d L w h P hP)

/-- The lengths, copied through the lengths buffer, land unchanged. -/
theorem len_lands (f2 : Buf (Elt F) ((V d (cV L) (jV L)).loc cc0_scratch2)) :
    View.write (Elt F) (pW : Memref sig .scVector .hbm S16 .i32).view (m (pLoc d))
      (ReadAs.same.apply (View.read (Elt F) (lbW : Memref sig .scVector .vmem S16 .i32).view
        (View.write (Elt F) (lbW : Memref sig .scVector .vmem S16 .i32).view f2
          (ReadAs.same.apply (View.read (Elt F) (lW : Memref sig .scVector .hbm S16 .i32).view (m (lLoc d)))) Finset.univ))) Finset.univ
      = lAsP m d := by
  show View.write (Elt F) (View.whole main_v0_1_scv) (m (pLoc d))
      (View.read (Elt F) (View.whole cc0_scratch2) (View.write (Elt F) (View.whole cc0_scratch2) f2
        (View.read (Elt F) (View.whole main_arg1_scv) (m (lLoc d))) Finset.univ)) Finset.univ = _
  rw [View.write_whole_univ, View.write_whole_univ, View.read_whole, View.read_whole]

omit [FloatOps F] in
/-- A recorded wait at the kernel's own index keeps the waits admissible. -/
theorem waits_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem tile_body (hF : (K (F := F)).Facts) (O : CellTallies nD τ sig (HIx 1)) (W : Waits sig (HIx 1)) (hO : ∀ g, O g none = 0) :
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_materialize L aW (Memref.isWhole_whole _) lW (Memref.isWhole_whole _) oW (Memref.isWhole_whole _) pW (Memref.isWhole_whole _)
            b0W (Memref.isWhole_whole _) b1W (Memref.isWhole_whole _) lbW (Memref.isWhole_whole _)
            cc0_scratch3 cc0_scratch4 cc0_scratch5 cc0_scratch6 cc0_scoped0 cc0_scoped1)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_materialize_eq_skeleton]; unfold cc0__sc_materialize_skel
  rw [(K (F := F)).scopedBufs_V hF d (cV L) (jV L), SparseCore.Cfg.scopedSems0_V (Val := Elt F) d (cV L) (jV L), ownSems0_V, ownBufs_V]
  unfold tileIn tileOut
  iintro ⟨#Hlv, -, ⟨⟨Ha0, Ha1, Ha2, Ha3⟩, ⟨Ho0, Ho1, Ho2, Ho3⟩, Hlen⟩, ⟨⟨⟨%f0, Hb0⟩, ⟨%f1, Hb1⟩, ⟨%f2, Hb2⟩⟩, Hbufs⟩, ⟨⟨Hs0, Hs1, Hs2, Hs3, Hs4, Hs5⟩, Hsems⟩, HO⟩
  ihave Hmw := ((K (F := F)).mayWaits_none (thr := V d (cV L) (jV L)) hO) $$ Hlv
  ihave Ha0 := (Entails.of_eq (pts_a0 (F := F) d L _).symm) $$ Ha0
  ihave Ha1 := (Entails.of_eq (pts_a1 (F := F) d L _).symm) $$ Ha1
  ihave Ha2 := (Entails.of_eq (pts_a2 (F := F) d L _).symm) $$ Ha2
  ihave Ha3 := (Entails.of_eq (pts_a3 (F := F) d L _).symm) $$ Ha3
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_lb (F := F) d L _).symm) $$ Hb2
  -- the fourteen chunk transfers and waits before the lengths' conditional
  sl_exec

  by_cases hL : isFirst L
  · -- tile (0, 0): the conditional is taken, the lengths go through the lengths buffer
    have hc : tile_body.sl.v102 L = 1#1 := (cond_iff L).mpr hL
    ihave Hlen := (Entails.of_eq (if_pos hL)) $$ Hlen
    icases Hlen with ⟨Hl, Hp⟩
    ihave Hl := (Entails.of_eq (pts_l (F := F) d L _).symm) $$ Hl
    ihave Hp := (Entails.of_eq (pts_p (F := F) d L _).symm) $$ Hp
    sl_exec
    sl_step
    have e0 : (heldO d L 0#32 (k0_off1_inb L 0) ((oLit L 0#32 (k0_off1_inb L 0)).view.writes (Elt F) (m (oLoc d)) [⟨Rect.whole S256x80, tile_body.sl.dma0_2 m d L f0⟩]) : sProp 𝕄)
        = oLoc d ↦[chunkSet L 0]{fullShare} aAsO m d :=
      (heldO_landed m d L 0#32 (k0_off1_inb L 0) (tile_body.sl.dma0_2 m d L f0) (fun y => pay_b0 m d L 0#32 (k0_off1_inb L 0) _ y)).trans (pts_o0 (F := F) d L _)
    have e1 : (heldO d L 256#32 (k0_off1_inb L 1) ((oLit L 256#32 (k0_off1_inb L 1)).view.writes (Elt F) (m (oLoc d)) [⟨Rect.whole S256x80, tile_body.sl.dma0_3 m d L f1⟩]) : sProp 𝕄)
        = oLoc d ↦[chunkSet L 1]{fullShare} aAsO m d :=
      (heldO_landed m d L 256#32 (k0_off1_inb L 1) (tile_body.sl.dma0_3 m d L f1) (fun y => pay_b1 m d L 256#32 (k0_off1_inb L 1) _ y)).trans (pts_o1 (F := F) d L _)
    have e2 : (heldO d L 512#32 (k0_off1_inb L 2) ((oLit L 512#32 (k0_off1_inb L 2)).view.writes (Elt F) (m (oLoc d)) [⟨Rect.whole S256x80, tile_body.sl.dma0_6 m d L f0⟩]) : sProp 𝕄)
        = oLoc d ↦[chunkSet L 2]{fullShare} aAsO m d :=
      (heldO_landed m d L 512#32 (k0_off1_inb L 2) (tile_body.sl.dma0_6 m d L f0) (fun y => pay_b0 m d L 512#32 (k0_off1_inb L 2) _ y)).trans (pts_o2 (F := F) d L _)
    have e3 : (heldO d L 768#32 (k0_off1_inb L 3) ((oLit L 768#32 (k0_off1_inb L 3)).view.writes (Elt F) (m (oLoc d)) [⟨Rect.whole S256x80, tile_body.sl.dma0_7 m d L f1⟩]) : sProp 𝕄)
        = oLoc d ↦[chunkSet L 3]{fullShare} aAsO m d :=
      (heldO_landed m d L 768#32 (k0_off1_inb L 3) (tile_body.sl.dma0_7 m d L f1) (fun y => pay_b1 m d L 768#32 (k0_off1_inb L 3) _ y)).trans (pts_o3 (F := F) d L _)
    ihave Ho0 := (Entails.of_eq e0) $$ Ho0
    ihave Ho1 := (Entails.of_eq e1) $$ Ho1
    ihave Ho2 := (Entails.of_eq e2) $$ Ho2
    ihave Ho3 := (Entails.of_eq e3) $$ Ho3
    ihave Ha0 := (Entails.of_eq (pts_a0 (F := F) d L _)) $$ Ha0
    ihave Ha1 := (Entails.of_eq (pts_a1 (F := F) d L _)) $$ Ha1
    ihave Ha2 := (Entails.of_eq (pts_a2 (F := F) d L _)) $$ Ha2
    ihave Ha3 := (Entails.of_eq (pts_a3 (F := F) d L _)) $$ Ha3
    ihave Hb0 := (Entails.of_eq (pts_b0 (F := F) d L _)) $$ Hb0
    ihave Hb1 := (Entails.of_eq (pts_b1 (F := F) d L _)) $$ Hb1
    ihave Hb2 := (Entails.of_eq (pts_lb (F := F) d L _)) $$ Hb2
    have ep : (View.loc (V d (cV L) (jV L)) (pW : Memref sig .scVector .hbm S16 .i32).view ↦{fullShare}
          View.write (Elt F) (pW : Memref sig .scVector .hbm S16 .i32).view (m (pLoc d)) (tile_body.sl.dma0_9 m d L f2) Finset.univ : sProp 𝕄)
        = pLoc d ↦{fullShare} lAsP m d :=
      (congrArg (fun g => (View.loc (V d (cV L) (jV L)) (pW : Memref sig .scVector .hbm S16 .i32).view ↦{fullShare} g : sProp 𝕄)) (len_lands m d L f2)).trans (pts_p (F := F) d L _)
    ihave Hp := (Entails.of_eq ep) $$ Hp
    ihave Hl := (Entails.of_eq (pts_l (F := F) d L _)) $$ Hl
    isplitl [Ha0 Ha1 Ha2 Ha3 Ho0 Ho1 Ho2 Ho3 Hl Hp]
    · isplitl [Ha0 Ha1 Ha2 Ha3]
      · isplitl [Ha0]; · iexact Ha0
        isplitl [Ha1]; · iexact Ha1
        isplitl [Ha2]; · iexact Ha2
        iexact Ha3
      isplitl [Ho0 Ho1 Ho2 Ho3]
      · isplitl [Ho0]; · iexact Ho0
        isplitl [Ho1]; · iexact Ho1
        isplitl [Ho2]; · iexact Ho2
        iexact Ho3
      iapply (Entails.of_eq (if_pos hL).symm)
      isplitl [Hl]; · iexact Hl
      iexact Hp
    isplitl [Hb0 Hb1 Hb2 Hbufs]
    · isplitl [Hb0 Hb1 Hb2]
      · isplitl [Hb0]; · iexists _; iexact Hb0
        isplitl [Hb1]; · iexists _; iexact Hb1
        iexists _; iexact Hb2
      iexact Hbufs
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    · ipureintro
      exact waits_ok (waits_ok (waits_ok (waits_ok (waits_ok (waits_ok (waits_ok (waits_ok (waits_ok (waits_ok (fun p hp => .inl hp))))))))))
  · -- every other tile: the conditional is skipped
    have hc : ¬ tile_body.sl.v102 L = 1#1 := fun h => hL ((cond_iff L).mp h)
    sl_exec
    sl_step
    have e0 : (heldO d L 0#32 (k0_off1_inb L 0) ((oLit L 0#32 (k0_off1_inb L 0)).view.writes (Elt F) (m (oLoc d)) [⟨Rect.whole S256x80, tile_body.sl.dma0_2 m d L f0⟩]) : sProp 𝕄)
        = oLoc d ↦[chunkSet L 0]{fullShare} aAsO m d :=
      (heldO_landed m d L 0#32 (k0_off1_inb L 0) (tile_body.sl.dma0_2 m d L f0) (fun y => pay_b0 m d L 0#32 (k0_off1_inb L 0) _ y)).trans (pts_o0 (F := F) d L _)
    have e1 : (heldO d L 256#32 (k0_off1_inb L 1) ((oLit L 256#32 (k0_off1_inb L 1)).view.writes (Elt F) (m (oLoc d)) [⟨Rect.whole S256x80, tile_body.sl.dma0_3 m d L f1⟩]) : sProp 𝕄)
        = oLoc d ↦[chunkSet L 1]{fullShare} aAsO m d :=
      (heldO_landed m d L 256#32 (k0_off1_inb L 1) (tile_body.sl.dma0_3 m d L f1) (fun y => pay_b1 m d L 256#32 (k0_off1_inb L 1) _ y)).trans (pts_o1 (F := F) d L _)
    have e2 : (heldO d L 512#32 (k0_off1_inb L 2) ((oLit L 512#32 (k0_off1_inb L 2)).view.writes (Elt F) (m (oLoc d)) [⟨Rect.whole S256x80, tile_body.sl.dma0_6 m d L f0⟩]) : sProp 𝕄)
        = oLoc d ↦[chunkSet L 2]{fullShare} aAsO m d :=
      (heldO_landed m d L 512#32 (k0_off1_inb L 2) (tile_body.sl.dma0_6 m d L f0) (fun y => pay_b0 m d L 512#32 (k0_off1_inb L 2) _ y)).trans (pts_o2 (F := F) d L _)
    have e3 : (heldO d L 768#32 (k0_off1_inb L 3) ((oLit L 768#32 (k0_off1_inb L 3)).view.writes (Elt F) (m (oLoc d)) [⟨Rect.whole S256x80, tile_body.sl.dma0_7 m d L f1⟩]) : sProp 𝕄)
        = oLoc d ↦[chunkSet L 3]{fullShare} aAsO m d :=
      (heldO_landed m d L 768#32 (k0_off1_inb L 3) (tile_body.sl.dma0_7 m d L f1) (fun y => pay_b1 m d L 768#32 (k0_off1_inb L 3) _ y)).trans (pts_o3 (F := F) d L _)
    ihave Ho0 := (Entails.of_eq e0) $$ Ho0
    ihave Ho1 := (Entails.of_eq e1) $$ Ho1
    ihave Ho2 := (Entails.of_eq e2) $$ Ho2
    ihave Ho3 := (Entails.of_eq e3) $$ Ho3
    ihave Ha0 := (Entails.of_eq (pts_a0 (F := F) d L _)) $$ Ha0
    ihave Ha1 := (Entails.of_eq (pts_a1 (F := F) d L _)) $$ Ha1
    ihave Ha2 := (Entails.of_eq (pts_a2 (F := F) d L _)) $$ Ha2
    ihave Ha3 := (Entails.of_eq (pts_a3 (F := F) d L _)) $$ Ha3
    ihave Hb0 := (Entails.of_eq (pts_b0 (F := F) d L _)) $$ Hb0
    ihave Hb1 := (Entails.of_eq (pts_b1 (F := F) d L _)) $$ Hb1
    ihave Hb2 := (Entails.of_eq (pts_lb (F := F) d L _)) $$ Hb2
    isplitl [Ha0 Ha1 Ha2 Ha3 Ho0 Ho1 Ho2 Ho3]
    · isplitl [Ha0 Ha1 Ha2 Ha3]
      · isplitl [Ha0]; · iexact Ha0
        isplitl [Ha1]; · iexact Ha1
        isplitl [Ha2]; · iexact Ha2
        iexact Ha3
      isplitl [Ho0 Ho1 Ho2 Ho3]
      · isplitl [Ho0]; · iexact Ho0
        isplitl [Ho1]; · iexact Ho1
        isplitl [Ho2]; · iexact Ho2
        iexact Ho3
      iapply (Entails.of_eq (if_neg hL).symm)
      iempintro
    isplitl [Hb0 Hb1 Hb2 Hbufs]
    · isplitl [Hb0 Hb1 Hb2]
      · isplitl [Hb0]; · iexists _; iexact Hb0
        isplitl [Hb1]; · iexists _; iexact Hb1
        iexists _; iexact Hb2
      iexact Hbufs
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    · ipureintro
      exact waits_ok (waits_ok (waits_ok (waits_ok (waits_ok (waits_ok (waits_ok (waits_ok (fun p hp => .inl hp))))))))

end Tile

end Cert.Proof.BitsSide

end
-- ==== Proof.BitsLaunch.lean ====
/-
  The launch: from one tile's task to the whole program's run, and what the run leaves.

  The one call hands SparseCore c the hand-outs of its sixteen tiles and takes back their hand-backs;
  the 2 * 16 * 4 chunks are pairwise disjoint and cover the [16, 2048, 80] index space (an index's
  batch row names the subcore, its time step's thousand the core, the quarter of that the chunk), so
  the whole input and output arrays are exactly the tiles' chunks, and the lengths go to tile (0, 0)
  alone. After the call the output array holds the input's contents at every index and the output
  lengths the input lengths; the inputs are unchanged.
-/
import proofs.«216305_g5669356832350_cont_9to1_m_939_18_alg».proof.Proof.BitsBody

noncomputable section

namespace Cert.Proof.BitsSide

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunks tile the index space -/

theorem chunks_disjoint : ∀ t ∈ (Finset.univ : Finset (Fin (grid0.bound 0) × Fin (grid0.bound 1) × Fin 4)), ∀ t' ∈ (Finset.univ : Finset (Fin (grid0.bound 0) × Fin (grid0.bound 1) × Fin 4)), t ≠ t' →
    Disjoint (chunkSet (coordsV t.1 t.2.1) t.2.2) (chunkSet (coordsV t'.1 t'.2.1) t'.2.2) := by
  rintro ⟨c, s, r⟩ - ⟨c', s', r'⟩ - hne
  refine Finset.disjoint_left.mpr fun j h1 h2 => hne ?_
  dsimp only at h1 h2
  rw [mem_chunkSet] at h1 h2
  have hc : (coordsV c s (0 : Fin 2)).val = c.val := rfl
  have hs : (coordsV c s (1 : Fin 2)).val = s.val := rfl
  have hc' : (coordsV c' s' (0 : Fin 2)).val = c'.val := rfl
  have hs' : (coordsV c' s' (1 : Fin 2)).val = s'.val := rfl
  rw [hc, hs] at h1; rw [hc', hs'] at h2
  have hcl : c.val < 2 := c.isLt
  have hcl' : c'.val < 2 := c'.isLt
  have := r.isLt; have := r'.isLt
  have e1 : c.val = c'.val := by omega
  have e2 : s.val = s'.val := by omega
  have e3 : r.val = r'.val := by omega
  exact Prod.ext (Fin.ext e1) (Prod.ext (Fin.ext e2) (Fin.ext e3))

theorem chunks_cover : (Finset.univ : Finset (Fin (grid0.bound 0) × Fin (grid0.bound 1) × Fin 4)).biUnion (fun t => chunkSet (coordsV t.1 t.2.1) t.2.2) = Finset.univ := by
  ext j
  simp only [Finset.mem_biUnion, Finset.mem_univ, true_and, iff_true]
  have h0 : (j 0).val < 16 := (j 0).isLt
  have h1 : (j 1).val < 2048 := (j 1).isLt
  refine ⟨(⟨(j 1).val / 1024, by show (j 1).val / 1024 < 2; omega⟩, ⟨(j 0).val, h0⟩, ⟨(j 1).val % 1024 / 256, by omega⟩), ?_⟩
  rw [mem_chunkSet]
  show (j 0).val = (j 0).val ∧ (j 1).val / 1024 * 1024 + 256 * ((j 1).val % 1024 / 256) ≤ (j 1).val
    ∧ (j 1).val < (j 1).val / 1024 * 1024 + 256 * ((j 1).val % 1024 / 256) + 256
  omega

omit F in
theorem fin4_univ : (Finset.univ : Finset (Fin 4)) = {0, 1, 2, 3} := by decide

/-- An assertion additive over disjoint index sets, taken on the whole index space, is that assertion on every chunk
    of every tile. -/
theorem chunks_eq (pt : Finset S16x2048x80.Idx → sProp 𝕄)
    (hpt : ∀ (Kf : Fin (grid0.bound 0) × Fin (grid0.bound 1) × Fin 4 → Finset S16x2048x80.Idx),
      (∀ t ∈ (Finset.univ : Finset (Fin (grid0.bound 0) × Fin (grid0.bound 1) × Fin 4)), ∀ t' ∈ (Finset.univ : Finset (Fin (grid0.bound 0) × Fin (grid0.bound 1) × Fin 4)), t ≠ t' → Disjoint (Kf t) (Kf t')) →
        pt ((Finset.univ : Finset (Fin (grid0.bound 0) × Fin (grid0.bound 1) × Fin 4)).biUnion Kf) = bigSep Finset.univ fun t => pt (Kf t)) :
    (bigSep Finset.univ fun c : Fin (grid0.bound 0) => bigSep Finset.univ fun s : Fin (grid0.bound 1) =>
      iprop(pt (chunkSet (coordsV c s) 0) ∗ pt (chunkSet (coordsV c s) 1) ∗ pt (chunkSet (coordsV c s) 2) ∗ pt (chunkSet (coordsV c s) 3)))
      = pt Finset.univ := by
  rw [← chunks_cover, hpt _ chunks_disjoint, bigSep_univ_prod]
  refine bigSep_congr fun c _ => ?_
  rw [bigSep_univ_prod]
  refine bigSep_congr fun s _ => ?_
  rw [fin4_univ, SparseCore.bigSep_insert' (by decide), SparseCore.bigSep_insert' (by decide), SparseCore.bigSep_insert' (by decide), bigSep_singleton]

/-- Only tile (0, 0) is handed the lengths. -/
theorem first_only (X : sProp 𝕄) :
    (bigSep Finset.univ fun c : Fin (grid0.bound 0) => bigSep Finset.univ fun s : Fin (grid0.bound 1) => if isFirst (coordsV c s) then X else iprop(emp)) = X := by
  refine (bigSep_univ_prod (fun t : Fin (grid0.bound 0) × Fin (grid0.bound 1) => if isFirst (coordsV t.1 t.2) then X else iprop(emp))).symm.trans ?_
  refine (bigSep_filter Finset.univ (fun t : Fin (grid0.bound 0) × Fin (grid0.bound 1) => isFirst (coordsV t.1 t.2)) (fun _ => X)).symm.trans ?_
  rw [show (Finset.univ.filter fun t : Fin (grid0.bound 0) × Fin (grid0.bound 1) => isFirst (coordsV t.1 t.2)) = {((⟨0, by decide⟩ : Fin (grid0.bound 0)), (⟨0, by decide⟩ : Fin (grid0.bound 1)))} by decide, bigSep_singleton]

variable (m : (ℓ : Loc nD τ sig) → Buf (Elt F) ℓ) (ρ : Dev nD → PrngReg)

/-- A tile's share of the arrays, at given contents of the input and output arrays and a given lengths part. -/
def tileRes (d : Dev nD) (fa : Buf (Elt F) (aLoc d)) (fo : Buf (Elt F) (oLoc d)) (X : sProp 𝕄) (L : grid0.Coords) : sProp 𝕄 :=
  iprop(((aLoc d ↦[chunkSet L 0]{fullShare} fa) ∗ (aLoc d ↦[chunkSet L 1]{fullShare} fa)
      ∗ (aLoc d ↦[chunkSet L 2]{fullShare} fa) ∗ (aLoc d ↦[chunkSet L 3]{fullShare} fa))
    ∗ ((oLoc d ↦[chunkSet L 0]{fullShare} fo) ∗ (oLoc d ↦[chunkSet L 1]{fullShare} fo)
      ∗ (oLoc d ↦[chunkSet L 2]{fullShare} fo) ∗ (oLoc d ↦[chunkSet L 3]{fullShare} fo))
    ∗ (if isFirst L then X else iprop(emp)))

theorem tileIn_eq (d : Dev nD) (L : grid0.Coords) :
    tileIn m d L = tileRes d (m (aLoc d)) (m (oLoc d)) iprop((lLoc d ↦{fullShare} m (lLoc d)) ∗ (pLoc d ↦{fullShare} m (pLoc d))) L := rfl
theorem tileOut_eq (d : Dev nD) (L : grid0.Coords) :
    tileOut m d L = tileRes d (m (aLoc d)) (aAsO m d) iprop((lLoc d ↦{fullShare} m (lLoc d)) ∗ (pLoc d ↦{fullShare} lAsP m d)) L := rfl

/-- The input array whole is its chunks, over all tiles; -/
theorem a_chunks (d : Dev nD) (fa : Buf (Elt F) (aLoc d)) :
    (bigSep Finset.univ fun c : Fin (grid0.bound 0) => bigSep Finset.univ fun s : Fin (grid0.bound 1) =>
      iprop((aLoc d ↦[chunkSet (coordsV c s) 0]{fullShare} fa) ∗ (aLoc d ↦[chunkSet (coordsV c s) 1]{fullShare} fa)
        ∗ (aLoc d ↦[chunkSet (coordsV c s) 2]{fullShare} fa) ∗ (aLoc d ↦[chunkSet (coordsV c s) 3]{fullShare} fa)))
      = (aLoc d ↦{fullShare} fa : sProp 𝕄) :=
  chunks_eq (fun I => (aLoc d ↦[I]{fullShare} fa : sProp 𝕄))
    (fun Kf h => pointsTo_biUnion (ℓ := aLoc d) (q := fullShare) (f := fa) Finset.univ Kf h)
/-- and so is the output array. -/
theorem o_chunks (d : Dev nD) (fo : Buf (Elt F) (oLoc d)) :
    (bigSep Finset.univ fun c : Fin (grid0.bound 0) => bigSep Finset.univ fun s : Fin (grid0.bound 1) =>
      iprop((oLoc d ↦[chunkSet (coordsV c s) 0]{fullShare} fo) ∗ (oLoc d ↦[chunkSet (coordsV c s) 1]{fullShare} fo)
        ∗ (oLoc d ↦[chunkSet (coordsV c s) 2]{fullShare} fo) ∗ (oLoc d ↦[chunkSet (coordsV c s) 3]{fullShare} fo)))
      = (oLoc d ↦{fullShare} fo : sProp 𝕄) :=
  chunks_eq (fun I => (oLoc d ↦[I]{fullShare} fo : sProp 𝕄))
    (fun Kf h => pointsTo_biUnion (ℓ := oLoc d) (q := fullShare) (f := fo) Finset.univ Kf h)

/-- All the tiles' shares together are the two arrays whole and the lengths part. -/
theorem deal (d : Dev nD) (fa : Buf (Elt F) (aLoc d)) (fo : Buf (Elt F) (oLoc d)) (X : sProp 𝕄) :
    (bigSep Finset.univ fun c : Fin (grid0.bound 0) => bigSep Finset.univ fun s : Fin (grid0.bound 1) => tileRes d fa fo X (coordsV c s))
      = iprop((aLoc d ↦{fullShare} fa) ∗ (oLoc d ↦{fullShare} fo) ∗ X) := by
  have key : ∀ (A O Z : Fin (grid0.bound 0) → Fin (grid0.bound 1) → sProp 𝕄),
      (bigSep Finset.univ fun c => bigSep Finset.univ fun s => iprop(A c s ∗ O c s ∗ Z c s))
        = iprop((bigSep Finset.univ fun c => bigSep Finset.univ fun s => A c s)
            ∗ (bigSep Finset.univ fun c => bigSep Finset.univ fun s => O c s)
            ∗ (bigSep Finset.univ fun c => bigSep Finset.univ fun s => Z c s)) := by
    intro A O Z; simp only [bigSep_sep']
  unfold tileRes
  rw [key (fun c s => iprop((aLoc d ↦[chunkSet (coordsV c s) 0]{fullShare} fa) ∗ (aLoc d ↦[chunkSet (coordsV c s) 1]{fullShare} fa)
        ∗ (aLoc d ↦[chunkSet (coordsV c s) 2]{fullShare} fa) ∗ (aLoc d ↦[chunkSet (coordsV c s) 3]{fullShare} fa)))
      (fun c s => iprop((oLoc d ↦[chunkSet (coordsV c s) 0]{fullShare} fo) ∗ (oLoc d ↦[chunkSet (coordsV c s) 1]{fullShare} fo)
        ∗ (oLoc d ↦[chunkSet (coordsV c s) 2]{fullShare} fo) ∗ (oLoc d ↦[chunkSet (coordsV c s) 3]{fullShare} fo)))
      (fun c s => if isFirst (coordsV c s) then X else iprop(emp)),
    a_chunks, o_chunks, first_only]

/-! ## What the handshakes carry -/

/-- The tile that task i of SparseCore c is. -/
abbrev tileOf (q : Fin 1) (c : Fin ((K (F := F)).nCore q)) (i : Fin ((K (F := F)).nSub q)) : grid0.Coords :=
  coordsV ⟨c.val, lt_of_lt_of_le c.isLt ((K (F := F)).hCore q)⟩ ⟨i.val, lt_of_lt_of_le i.isLt ((K (F := F)).hSub q)⟩

/-- The call hands SparseCore c its tiles' hand-outs and takes back their hand-backs; a tile gets its own. -/
def P : (K (F := F)).Pay (nD := nD) (Val := Elt F) (Name := ℕ) (U := UU) where
  st := fun q d c => bigSep Finset.univ fun i : Fin ((K (F := F)).nSub q) => tileIn m d (tileOf q c i)
  dn := fun q d c => bigSep Finset.univ fun i : Fin ((K (F := F)).nSub q) => tileOut m d (tileOf q c i)
  go := fun q d c i => tileIn m d (tileOf q c i)
  td := fun q d c i => tileOut m d (tileOf q c i)
  x := fun _ _ => iprop(emp)

instance P_storable : (P (F := F) m).IsStorable where
  st q d c := by unfold P; infer_instance
  dn q d c := by unfold P; infer_instance
  go q d c i := by unfold P; infer_instance
  td q d c i := by unfold P; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_materialize (coordsV c s)
          aW (Memref.isWhole_whole _) lW (Memref.isWhole_whole _) oW (Memref.isWhole_whole _) pW (Memref.isWhole_whole _)
          b0W (Memref.isWhole_whole _) b1W (Memref.isWhole_whole _) lbW (Memref.isWhole_whole _)
          cc0_scratch3 cc0_scratch4 cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun i : Fin ((K (F := F)).nSub 0) => tileIn m d (tileOf 0 c i)) ⊢ |={Set.univ}=> iprop(
      (bigSep Finset.univ fun i : Fin ((K (F := F)).nSub 0) => tileIn m d (tileOf 0 c i))
      ∗ ((bigSep Finset.univ fun i : Fin ((K (F := F)).nSub 0) => tileOut m d (tileOf 0 c i))
          -∗ bigSep Finset.univ fun i : Fin ((K (F := F)).nSub 0) => tileOut m d (tileOf 0 c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (lLoc d ↦{fullShare} W main_arg1)
      ∗ (oLoc d ↦{fullShare} W main_v0_0) ∗ pLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What the call takes for the two SparseCores: the four arrays whole; -/
theorem st0_eq (d : Dev nD) : (bigSep Finset.univ fun c : Fin ((K (F := F)).nCore 0) => (P m).st 0 d c)
    = iprop((aLoc d ↦{fullShare} m (aLoc d)) ∗ (oLoc d ↦{fullShare} m (oLoc d)) ∗ (lLoc d ↦{fullShare} m (lLoc d)) ∗ (pLoc d ↦{fullShare} m (pLoc d))) := by
  show (bigSep (Finset.univ : Finset (Fin (grid0.bound 0))) fun c => bigSep (Finset.univ : Finset (Fin (grid0.bound 1))) fun s =>
    tileRes d (m (aLoc d)) (m (oLoc d)) iprop((lLoc d ↦{fullShare} m (lLoc d)) ∗ (pLoc d ↦{fullShare} m (pLoc d))) (coordsV c s)) = _
  exact deal d _ _ _
/-- and what it hands back: the output array at the input's contents, the output lengths at the input lengths. -/
theorem dn0_eq (d : Dev nD) : (bigSep Finset.univ fun c : Fin ((K (F := F)).nCore 0) => (P m).dn 0 d c)
    = iprop((aLoc d ↦{fullShare} m (aLoc d)) ∗ (oLoc d ↦{fullShare} aAsO m d) ∗ (lLoc d ↦{fullShare} m (lLoc d)) ∗ (pLoc d ↦{fullShare} lAsP m d)) := by
  show (bigSep (Finset.univ : Finset (Fin (grid0.bound 0))) fun c => bigSep (Finset.univ : Finset (Fin (grid0.bound 1))) fun s =>
    tileRes d (m (aLoc d)) (aAsO m d) iprop((lLoc d ↦{fullShare} m (lLoc d)) ∗ (pLoc d ↦{fullShare} lAsP m d)) (coordsV c s)) = _
  exact deal d _ _ _

/-- What @main leaves the claim: the four arrays whole, the results at the arguments' contents. -/
abbrev FIN (d : Dev nD) : sProp 𝕄 :=
  iprop((aLoc d ↦{fullShare} m (aLoc d)) ∗ (oLoc d ↦{fullShare} aAsO m d) ∗ (lLoc d ↦{fullShare} m (lLoc d)) ∗ (pLoc d ↦{fullShare} lAsP m d))

/-- @main on device d's TensorCore: the one call, from the four arrays and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hl, Ho, Hp⟩, -, -⟩, -⟩
  iapply ((K (F := F)).wp_run (D (F := F)) 𝒱 (EH := EH) (P := P m) κ d 0) $$ [Hst Ha Hl Ho Hp]
  isplitr; · iexact Hctx
  isplitl [Hst]; · iexact Hst
  isplitl [Ha Hl Ho Hp]
  · rw [st0_eq]
    isplitl [Ha]; · iexact Ha
    isplitl [Ho]; · iexact Ho
    isplitl [Hl]; · iexact Hl
    iexact Hp
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = aAsO m d ∧ s'.mem.mem (pLoc d) = lAsP m d ∧ s'.mem.mem (aLoc d) = m (aLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Ha, Ho, Hl, Hp⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := oLoc d) (I := Finset.univ) (q := fullShare) (f := aAsO m d))) $$ [HSI Ho]
  · isplitl [HSI] <;> iassumption
  icases H with ⟨%h2, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h3, HSI, -⟩
  ihave H := (SI_pointsTo_agree (st := s') (ℓ := pLoc d) (I := Finset.univ) (q := fullShare) (f := lAsP m d)) $$ [HSI Hp]
  · isplitl [HSI] <;> iassumption
  icases H with %h4
  ipureintro
  exact ⟨funext fun i => h2 i (Finset.mem_univ i), funext fun i => h4 i (Finset.mem_univ i),
    funext fun i => h1 i (Finset.mem_univ i), funext fun i => h3 i (Finset.mem_univ i)⟩

/-! ## The program's run -/

/-- After the run: the results hold the arguments' contents, the arguments are unchanged. -/
def QC : PUnit × MemSt nD τ sig (Elt F) → Prop := fun r => ∀ c : Dev nD,
  r.2.mem (oLoc c) = aAsO m c ∧ r.2.mem (pLoc c) = lAsP m c ∧ r.2.mem (aLoc c) = m (aLoc c) ∧ r.2.mem (lLoc c) = m (lLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.BitsSide

end
-- ==== Proof.IdealSetup.lean ====
/-
  A tile's view of the copy kernel, shared by the body's proof and the launch.

  The kernel copies a [16, 2048, 80] array: tile (core c, subcore s) owns batch row s, time steps
  c * 1024 .. c * 1024 + 1023, and moves them in four chunks of 256 time steps through two scratch
  buffers; tile (0, 0) also copies the 16 lengths. Here: the program as the launch theorem reads it,
  the ghost state (the handshakes' rounds beside the transfers' counters: every semaphore of a tile
  carries one transfer at a time, so no schedule is needed), the arrays' locations, chunk r of a tile
  as the program slices it, the closed form of the chunk's offsets and what it means for an index to
  lie in a chunk, and a tile's scoped semaphores and scratch buffers taken out of its scoped storage.
-/
import proofs.«216305_g5669356832350_cont_9to1_m_939_18_alg».proof.Defs
import Idealize.ShloMosaic.Lib.SparseCore.Launch
import Idealize.ShloMosaic.Lib.StableHlo.Run
import Idealize.ShloMosaic.Lib.Pipeline.Kit
import Idealize.ShloMosaic.Lib.Tactic
import proofs.«216305_g5669356832350_cont_9to1_m_939_18_alg».proof.Proof.Gen.KernelIdeal

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The input array, the input lengths, the output array, the output lengths, as locations of device d. -/
abbrev aLoc (d : Dev nD) : Loc nD τ sig := (SparseCore.T d).loc main_arg0
abbrev lLoc (d : Dev nD) : Loc nD τ sig := (SparseCore.T d).loc main_arg1
abbrev oLoc (d : Dev nD) : Loc nD τ sig := (SparseCore.T d).loc main_v0_0
abbrev pLoc (d : Dev nD) : Loc nD τ sig := (SparseCore.T d).loc main_v0_1

abbrev aW : Memref sig .scVector .hbm S16x2048x80 .f32 := Memref.whole main_arg0_scv
abbrev lW : Memref sig .scVector .hbm S16 .i32 := Memref.whole main_arg1_scv
abbrev oW : Memref sig .scVector .hbm S16x2048x80 .f32 := Memref.whole main_v0_0_scv
abbrev pW : Memref sig .scVector .hbm S16 .i32 := Memref.whole main_v0_1_scv
/-- A tile's two staging buffers and its lengths buffer. -/
abbrev b0W : Memref sig .scVector .vmem S256x80 .f32 := Memref.whole cc0_scratch0
abbrev b1W : Memref sig .scVector .vmem S256x80 .f32 := Memref.whole cc0_scratch1
abbrev lbW : Memref sig .scVector .vmem S16 .i32 := Memref.whole cc0_scratch2

/-! ## Tiles and their chunks -/

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- Chunk r of tile L: one batch row, 256 time steps, all 80 features. -/
abbrev chunkRect (L : grid0.Coords) (r : Fin 4) : Rect S16x2048x80 :=
  Rect.unit (s := S16x2048x80) (k0_off1 L (BitVec.ofNat 32 (256 * r.val))) S1x256x80.size (k0_off1_inb L r)
abbrev aChunk (L : grid0.Coords) (r : Fin 4) : Memref sig .scVector .hbm S256x80 .f32 :=
  ((aW : Memref sig .scVector .hbm S16x2048x80 .f32).slice (chunkRect L r) (fun _ => rfl)).squeeze S256x80 squeezes_S1x256x80_S256x80
abbrev oChunk (L : grid0.Coords) (r : Fin 4) : Memref sig .scVector .hbm S256x80 .f32 :=
  ((oW : Memref sig .scVector .hbm S16x2048x80 .f32).slice (chunkRect L r) (fun _ => rfl)).squeeze S256x80 squeezes_S1x256x80_S256x80
/-- The indices of the big arrays that chunk r of tile L covers. -/
abbrev chunkSet (L : grid0.Coords) (r : Fin 4) : Finset S16x2048x80.Idx := (aChunk L r).view.set

theorem set_oChunk (L : grid0.Coords) (r : Fin 4) : (oChunk L r).view.set = chunkSet L r := by
  show (((oW : Memref sig .scVector .hbm S16x2048x80 .f32).view.slice (chunkRect L r)).reshape S256x80 squeezes_S1x256x80_S256x80.numel_eq).set
    = (((aW : Memref sig .scVector .hbm S16x2048x80 .f32).view.slice (chunkRect L r)).reshape S256x80 squeezes_S1x256x80_S256x80.numel_eq).set
  rw [View.set_reshape, View.set_reshape]
  rfl

/-- The chunk's offsets: batch row s, time step c * 1024 + 256 r, feature 0. -/
theorem off_eq : ∀ (L : grid0.Coords) (r : Fin 4) (a : Fin 3),
    k0_off1 L (BitVec.ofNat 32 (256 * r.val)) a = (![(L 1).val, (L 0).val * 1024 + 256 * r.val, 0] : Fin 3 → Nat) a := by
  decide +kernel

theorem chunkSet_eq (L : grid0.Coords) (r : Fin 4) : chunkSet L r = (chunkRect L r).set := by
  show (((View.whole (main_arg0_scv : Ref sig .scVector)).slice (chunkRect L r)).reshape S256x80 squeezes_S1x256x80_S256x80.numel_eq).set = _
  rw [View.set_reshape, View.set_slice_whole]

/-- An index lies in chunk r of tile (c, s) iff its batch row is s and its time step is in the chunk's 256. -/
theorem mem_chunkSet (L : grid0.Coords) (r : Fin 4) (j : S16x2048x80.Idx) :
    j ∈ chunkSet L r ↔ ((j 0).val = (L 1).val ∧ (L 0).val * 1024 + 256 * r.val ≤ (j 1).val ∧ (j 1).val < (L 0).val * 1024 + 256 * r.val + 256) := by
  rw [chunkSet_eq, Rect.mem_set_unit]
  constructor
  · intro h
    have h0 := h 0; have h1 := h 1
    rw [off_eq] at h0 h1
    have e0 : S1x256x80.size (0 : Fin 3) = 1 := rfl
    have e1 : S1x256x80.size (1 : Fin 3) = 256 := rfl
    rw [e0] at h0; rw [e1] at h1
    simp only [Matrix.cons_val_zero, Matrix.cons_val_one, Matrix.head_cons] at h0 h1
    omega
  · rintro ⟨h0, h1, h2⟩ a
    rw [off_eq]
    match a with
    | 0 => show (L 1).val ≤ (j 0).val ∧ (j 0).val < (L 1).val + 1; omega
    | 1 => show (L 0).val * 1024 + 256 * r.val ≤ (j 1).val ∧ (j 1).val < (L 0).val * 1024 + 256 * r.val + 256; omega
    | 2 => show 0 ≤ (j 2).val ∧ (j 2).val < 0 + 80; exact ⟨Nat.zero_le _, by have := (j 2).isLt; simpa using this⟩

/-! ## A tile's scoped storage -/

abbrev semI0 : DmaSem sig := cc0_scratch3.sem
abbrev semI1 : DmaSem sig := cc0_scratch4.sem
abbrev semO0 : DmaSem sig := cc0_scratch5.sem
abbrev semO1 : DmaSem sig := cc0_scratch6.sem
abbrev semL0 : DmaSem sig := cc0_scoped0.sem
abbrev semL1 : DmaSem sig := cc0_scoped1.sem
abbrev cell (thr : Thread nD τ) (s : DmaSem sig) : GSem nD τ sig := (thr, .dma s)

def sixCells (thr : Thread nD τ) : Finset (GSem nD τ sig) :=
  {cell thr semI0, cell thr semI1, cell thr semO0, cell thr semO1, cell thr semL0, cell thr semL1}

theorem sixCells_sub (d : Dev nD) (c : Fin τ.nSC) (i : Fin τ.nSub) : sixCells (V d c i) ⊆ ownCells (V d c i) := by
  intro g hg
  simp only [sixCells, Finset.mem_insert, Finset.mem_singleton] at hg
  rcases hg with rfl | rfl | rfl | rfl | rfl | rfl <;>
    exact mem_ownCells.mpr ⟨rfl, by show (SemLoc.dma _ : SemLoc sig).isScoped .scVector = true; decide⟩

theorem ownSems0_V (d : Dev nD) (c : Fin τ.nSC) (i : Fin τ.nSub) :
    (ownSems0 (V d c i) : sProp 𝕄)
      = iprop((semVal (cell (V d c i) semI0) 0 ∗ semVal (cell (V d c i) semI1) 0 ∗ semVal (cell (V d c i) semO0) 0
          ∗ semVal (cell (V d c i) semO1) 0 ∗ semVal (cell (V d c i) semL0) 0 ∗ semVal (cell (V d c i) semL1) 0)
          ∗ bigSep (ownCells (V d c i) \ sixCells (V d c i)) fun g => semVal g 0) := by
  unfold SparseCore.Cfg.ownSems0
  rw [SparseCore.bigSep_sdiff_split' (sixCells_sub d c i)]
  unfold sixCells
  rw [SparseCore.bigSep_insert' (by simp [cell]; decide), SparseCore.bigSep_insert' (by simp [cell]; decide),
    SparseCore.bigSep_insert' (by simp [cell]; decide), SparseCore.bigSep_insert' (by simp [cell]; decide),
    SparseCore.bigSep_insert' (by simp [cell]; decide), bigSep_singleton]

def threeRefs (c : Fin τ.nSC) (i : Fin τ.nSub) : Finset (DevRef τ sig) :=
  {(Proc.scVector c i).devRef cc0_scratch0, (Proc.scVector c i).devRef cc0_scratch1, (Proc.scVector c i).devRef cc0_scratch2}

theorem threeRefs_sub (c : Fin τ.nSC) (i : Fin τ.nSub) : threeRefs c i ⊆ ownRefs (τ := τ) (.scVector c i) := by
  intro b hb
  simp only [threeRefs, Finset.mem_insert, Finset.mem_singleton] at hb
  rcases hb with rfl | rfl | rfl <;> exact SparseCore.Cfg.mem_ownRefs_of_owner rfl

theorem ownBufs_V (d : Dev nD) (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f))
          ∗ bigSep (ownRefs (τ := τ) (.scVector c i) \ threeRefs c i) fun b => iprop(∃ f, ((d, b) : Loc nD τ sig) ↦{fullShare} f)) := by
  unfold SparseCore.Cfg.ownBufs
  refine (SparseCore.bigSep_sdiff_split' (threeRefs_sub c i)).trans ?_
  unfold threeRefs
  rw [SparseCore.bigSep_insert' (by
      simp only [Finset.mem_insert, Finset.mem_singleton, not_or]
      exact ⟨fun e => absurd (Proc.devRef_injective _ e) (show (cc0_scratch0 : Ref sig .scVector) ≠ cc0_scratch1 by decide),
        fun e => absurd (Proc.devRef_injective _ e) (show (cc0_scratch0 : Ref sig .scVector) ≠ cc0_scratch2 by decide)⟩),
    SparseCore.bigSep_insert' (by
      simp only [Finset.mem_singleton]
      exact fun e => absurd (Proc.devRef_injective _ e) (show (cc0_scratch1 : Ref sig .scVector) ≠ cc0_scratch2 by decide)),
    bigSep_singleton]

end Cert.Proof.IdealSide

end
-- ==== Proof.IdealBody.lean ====
/-
  One tile's task: the body of the copy kernel at a symbolic tile.

  Tile (c, s) is handed the four chunks of its 1024 time steps of batch row s, of the input (to read)
  and of the output (to write), and, if it is tile (0, 0), both lengths arrays. It copies chunk k
  into staging buffer k mod 2 and from there into the output's chunk k, two chunks in flight at a
  time, each of its semaphores carrying one transfer at a time, a buffer never touched while a
  transfer on it is pending. It hands back the input chunks unchanged and every output chunk holding,
  index by index, what the input holds there; tile (0, 0) also the output lengths equal to the input
  lengths.
-/
import proofs.«216305_g5669356832350_cont_9to1_m_939_18_alg».proof.Proof.IdealSetup
import proofs.«216305_g5669356832350_cont_9to1_m_939_18_alg».proof.Proof.Gen.KernelIdeal.Skeleton

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## What a tile is handed, and what it hands back -/

/-- Tile (0, 0): the one that also copies the lengths. -/
abbrev isFirst (L : grid0.Coords) : Prop := (L 0).val = 0 ∧ (L 1).val = 0

/-- The input's contents, read as contents of the output array (the two arrays have one type). -/
abbrev aAsO (d : Dev nD) : Buf (Elt F) (oLoc d) := m (aLoc d)
abbrev lAsP (d : Dev nD) : Buf (Elt F) (pLoc d) := m (lLoc d)

def tileIn (d : Dev nD) (L : grid0.Coords) : sProp 𝕄 :=
  iprop(((aLoc d ↦[chunkSet L 0]{fullShare} m (aLoc d)) ∗ (aLoc d ↦[chunkSet L 1]{fullShare} m (aLoc d))
      ∗ (aLoc d ↦[chunkSet L 2]{fullShare} m (aLoc d)) ∗ (aLoc d ↦[chunkSet L 3]{fullShare} m (aLoc d)))
    ∗ ((oLoc d ↦[chunkSet L 0]{fullShare} m (oLoc d)) ∗ (oLoc d ↦[chunkSet L 1]{fullShare} m (oLoc d))
      ∗ (oLoc d ↦[chunkSet L 2]{fullShare} m (oLoc d)) ∗ (oLoc d ↦[chunkSet L 3]{fullShare} m (oLoc d)))
    ∗ (if isFirst L then iprop((lLoc d ↦{fullShare} m (lLoc d)) ∗ (pLoc d ↦{fullShare} m (pLoc d))) else iprop(emp)))

def tileOut (d : Dev nD) (L : grid0.Coords) : sProp 𝕄 :=
  iprop(((aLoc d ↦[chunkSet L 0]{fullShare} m (aLoc d)) ∗ (aLoc d ↦[chunkSet L 1]{fullShare} m (aLoc d))
      ∗ (aLoc d ↦[chunkSet L 2]{fullShare} m (aLoc d)) ∗ (aLoc d ↦[chunkSet L 3]{fullShare} m (aLoc d)))
    ∗ ((oLoc d ↦[chunkSet L 0]{fullShare} aAsO m d) ∗ (oLoc d ↦[chunkSet L 1]{fullShare} aAsO m d)
      ∗ (oLoc d ↦[chunkSet L 2]{fullShare} aAsO m d) ∗ (oLoc d ↦[chunkSet L 3]{fullShare} aAsO m d))
    ∗ (if isFirst L then iprop((lLoc d ↦{fullShare} m (lLoc d)) ∗ (pLoc d ↦{fullShare} lAsP m d)) else iprop(emp)))

instance tileIn_storable (d : Dev nD) (L : grid0.Coords) : BI.Storable (upEmb : UEmb _ 𝕄) (tileIn m d L) := by
  unfold tileIn; split <;> infer_instance
instance tileOut_storable (d : Dev nD) (L : grid0.Coords) : BI.Storable (upEmb : UEmb _ 𝕄) (tileOut m d L) := by
  unfold tileOut; split <;> infer_instance

variable [FloatOps F]

section Tile

variable (d : Dev nD) (L : grid0.Coords)

/-- The output's chunk, held as the program's own slice of the output addresses it, is the output array on the chunk's indices. -/
theorem pts_oChunk (r : Fin 4) (f : Buf (Elt F) (oLoc d)) :
    ((oChunk L r).view.loc (V d (cV L) (jV L)) ↦[(oChunk L r).view.set]{fullShare} f : sProp 𝕄) = oLoc d ↦[chunkSet L r]{fullShare} f := by
  rw [set_oChunk]

/-- Chunk memrefs spelt as the program prints them: the offset word a literal. -/
abbrev aLit (w : BitVec 32) (h : ∀ a, (k0_off1 L w) a + S1x256x80.size a ≤ S16x2048x80.size a) : Memref sig .scVector .hbm S256x80 .f32 :=
  ((aW : Memref sig .scVector .hbm S16x2048x80 .f32).slice (Rect.unit (s := S16x2048x80) (k0_off1 L w) S1x256x80.size h) (fun _ => rfl)).squeeze S256x80 squeezes_S1x256x80_S256x80
abbrev oLit (w : BitVec 32) (h : ∀ a, (k0_off1 L w) a + S1x256x80.size a ≤ S16x2048x80.size a) : Memref sig .scVector .hbm S256x80 .f32 :=
  ((oW : Memref sig .scVector .hbm S16x2048x80 .f32).slice (Rect.unit (s := S16x2048x80) (k0_off1 L w) S1x256x80.size h) (fun _ => rfl)).squeeze S256x80 squeezes_S1x256x80_S256x80

abbrev heldA (w : BitVec 32) (h : ∀ a, (k0_off1 L w) a + S1x256x80.size a ≤ S16x2048x80.size a) (f : Buf (Elt F) (aLoc d)) : sProp 𝕄 :=
  (aLit L w h).view.loc (V d (cV L) (jV L)) ↦[(aLit L w h).view.set]{fullShare} f
abbrev heldO (w : BitVec 32) (h : ∀ a, (k0_off1 L w) a + S1x256x80.size a ≤ S16x2048x80.size a) (f : Buf (Elt F) (oLoc d)) : sProp 𝕄 :=
  (oLit L w h).view.loc (V d (cV L) (jV L)) ↦[(oLit L w h).view.set]{fullShare} f

theorem pts_a0 (f : Buf (Elt F) (aLoc d)) : (heldA d L 0#32 (k0_off1_inb L 0) f : sProp 𝕄) = aLoc d ↦[chunkSet L 0]{fullShare} f := rfl
theorem pts_a1 (f : Buf (Elt F) (aLoc d)) : (heldA d L 256#32 (k0_off1_inb L 1) f : sProp 𝕄) = aLoc d ↦[chunkSet L 1]{fullShare} f := rfl
theorem pts_a2 (f : Buf (Elt F) (aLoc d)) : (heldA d L 512#32 (k0_off1_inb L 2) f : sProp 𝕄) = aLoc d ↦[chunkSet L 2]{fullShare} f := rfl
theorem pts_a3 (f : Buf (Elt F) (aLoc d)) : (heldA d L 768#32 (k0_off1_inb L 3) f : sProp 𝕄) = aLoc d ↦[chunkSet L 3]{fullShare} f := rfl
theorem pts_o0 (f : Buf (Elt F) (oLoc d)) : (heldO d L 0#32 (k0_off1_inb L 0) f : sProp 𝕄) = oLoc d ↦[chunkSet L 0]{fullShare} f := by
  show ((oChunk L 0).view.loc (V d (cV L) (jV L)) ↦[(oChunk L 0).view.set]{fullShare} f : sProp 𝕄) = _; rw [set_oChunk]
theorem pts_o1 (f : Buf (Elt F) (oLoc d)) : (heldO d L 256#32 (k0_off1_inb L 1) f : sProp 𝕄) = oLoc d ↦[chunkSet L 1]{fullShare} f := by
  show ((oChunk L 1).view.loc (V d (cV L) (jV L)) ↦[(oChunk L 1).view.set]{fullShare} f : sProp 𝕄) = _; rw [set_oChunk]
theorem pts_o2 (f : Buf (Elt F) (oLoc d)) : (heldO d L 512#32 (k0_off1_inb L 2) f : sProp 𝕄) = oLoc d ↦[chunkSet L 2]{fullShare} f := by
  show ((oChunk L 2).view.loc (V d (cV L) (jV L)) ↦[(oChunk L 2).view.set]{fullShare} f : sProp 𝕄) = _; rw [set_oChunk]
theorem pts_o3 (f : Buf (Elt F) (oLoc d)) : (heldO d L 768#32 (k0_off1_inb L 3) f : sProp 𝕄) = oLoc d ↦[chunkSet L 3]{fullShare} f := by
  show ((oChunk L 3).view.loc (V d (cV L) (jV L)) ↦[(oChunk L 3).view.set]{fullShare} f : sProp 𝕄) = _; rw [set_oChunk]

/-- The scratch buffers, held whole through their memrefs. -/
theorem pts_b0 (f : Buf (Elt F) ((V d (cV L) (jV L)).loc cc0_scratch0)) :
    ((b0W : Memref sig .scVector .vmem S256x80 .f32).view.loc (V d (cV L) (jV L)) ↦{fullShare} f : sProp 𝕄) = (V d (cV L) (jV L)).loc cc0_scratch0 ↦{fullShare} f := rfl
theorem pts_b1 (f : Buf (Elt F) ((V d (cV L) (jV L)).loc cc0_scratch1)) :
    ((b1W : Memref sig .scVector .vmem S256x80 .f32).view.loc (V d (cV L) (jV L)) ↦{fullShare} f : sProp 𝕄) = (V d (cV L) (jV L)).loc cc0_scratch1 ↦{fullShare} f := rfl
theorem pts_lb (f : Buf (Elt F) ((V d (cV L) (jV L)).loc cc0_scratch2)) :
    ((lbW : Memref sig .scVector .vmem S16 .i32).view.loc (V d (cV L) (jV L)) ↦{fullShare} f : sProp 𝕄) = (V d (cV L) (jV L)).loc cc0_scratch2 ↦{fullShare} f := rfl

/-- The kernel's test "this is tile 0": the word it computes from the tile's coordinates is 1 exactly at tile (0, 0). -/
theorem cond_iff : ∀ L : grid0.Coords,
    ((Scalar.cmpi .ne (Scalar.extui (Scalar.cmpi .eq (Scalar.addi (Scalar.muli (BitVec.ofNat 32 (L 1).val) 2#32) (BitVec.ofNat 32 (L 0).val)) 0#32) : BitVec 32) 0#32 = 1#1)
      ↔ ((L 0).val = 0 ∧ (L 1).val = 0)) := by
  decide +kernel

theorem pts_l (f : Buf (Elt F) (lLoc d)) :
    ((lW : Memref sig .scVector .hbm S16 .i32).view.loc (V d (cV L) (jV L)) ↦{fullShare} f : sProp 𝕄) = lLoc d ↦{fullShare} f := rfl
theorem pts_p (f : Buf (Elt F) (pLoc d)) :
    ((pW : Memref sig .scVector .hbm S16 .i32).view.loc (V d (cV L) (jV L)) ↦{fullShare} f : sProp 𝕄) = pLoc d ↦{fullShare} f := rfl

/-! ## The value of a copied chunk -/

/-- What the staging buffer delivers: the input's chunk, read entry by entry, whatever the buffer held before. -/
theorem pay_b0 (w : BitVec 32) (h : ∀ a, (k0_off1 L w) a + S1x256x80.size a ≤ S16x2048x80.size a)
    (fb : Buf (Elt F) ((V d (cV L) (jV L)).loc cc0_scratch0)) (y : S256x80.Idx) :
    ReadAs.same.apply (View.read (Elt F) (b0W : Memref sig .scVector .vmem S256x80 .f32).view
        (View.write (Elt F) (b0W : Memref sig .scVector .vmem S256x80 .f32).view fb
          (ReadAs.same.apply (View.read (Elt F) (aLit L w h).view (m (aLoc d)))) Finset.univ)) y
      = m (aLoc d) ((aLit L w h).view.emb y) := by
  show View.read (Elt F) (View.whole cc0_scratch0) (View.write (Elt F) (View.whole cc0_scratch0) fb
    (View.read (Elt F) (aLit L w h).view (m (aLoc d))) Finset.univ) y = _
  rw [View.write_whole_univ, View.read_whole]
  exact (View.read_apply _ _).trans (cast_eq _ _)
theorem pay_b1 (w : BitVec 32) (h : ∀ a, (k0_off1 L w) a + S1x256x80.size a ≤ S16x2048x80.size a)
    (fb : Buf (Elt F) ((V d (cV L) (jV L)).loc cc0_scratch1)) (y : S256x80.Idx) :
    ReadAs.same.apply (View.read (Elt F) (b1W : Memref sig .scVector .vmem S256x80 .f32).view
        (View.write (Elt F) (b1W : Memref sig .scVector .vmem S256x80 .f32).view fb
          (ReadAs.same.apply (View.read (Elt F) (aLit L w h).view (m (aLoc d)))) Finset.univ)) y
      = m (aLoc d) ((aLit L w h).view.emb y) := by
  show View.read (Elt F) (View.whole cc0_scratch1) (View.write (Elt F) (View.whole cc0_scratch1) fb
    (View.read (Elt F) (aLit L w h).view (m (aLoc d))) Finset.univ) y = _
  rw [View.write_whole_univ, View.read_whole]
  exact (View.read_apply _ _).trans (cast_eq _ _)

/-- A landed output chunk holds, at each of its indices, the input's entry at that index. -/
theorem out_chunk_eq (w : BitVec 32) (h : ∀ a, (k0_off1 L w) a + S1x256x80.size a ≤ S16x2048x80.size a)
    (P : S256x80.Idx → Elt F .f32) (hP : ∀ y, P y = m (aLoc d) ((aLit L w h).view.emb y)) :
    ∀ i ∈ (oLit L w h).view.set, (oLit L w h).view.writes (Elt F) (m (oLoc d)) [⟨Rect.whole S256x80, P⟩] i = aAsO m d i := by
  intro i hi
  obtain ⟨y, -, rfl⟩ := Finset.mem_map.mp hi
  have h1 := View.read_writes_cons_emb (oLit L w h).view (m (oLoc d)) (Rect.whole S256x80) P [] y
  rw [Rect.emb_whole_apply] at h1
  have h2 : (oLit L w h).view.read (Elt F) ((oLit L w h).view.writes (Elt F) (m (oLoc d)) [⟨Rect.whole S256x80, P⟩]) y
      = (oLit L w h).view.writes (Elt F) (m (oLoc d)) [⟨Rect.whole S256x80, P⟩] ((oLit L w h).view.emb y) :=
    (View.read_apply _ _).trans (cast_eq _ _)
  exact (h2.symm.trans h1).trans (hP y)

theorem heldO_landed (w : BitVec 32) (h : ∀ a, (k0_off1 L w) a + S1x256x80.size a ≤ S16x2048x80.size a)
    (P : S256x80.Idx → Elt F .f32) (hP : ∀ y, P y = m (aLoc d) ((aLit L w h).view.emb y)) :
    (heldO d L w h ((oLit L w h).view.writes (Elt F) (m (oLoc d)) [⟨Rect.whole S256x80, P⟩]) : sProp 𝕄) = heldO d L w h (aAsO m d) :=
  pointsTo_congr (out_chunk_eq m d L w h P hP)

/-- The lengths, copied through the lengths buffer, land unchanged. -/
theorem len_lands (f2 : Buf (Elt F) ((V d (cV L) (jV L)).loc cc0_scratch2)) :
    View.write (Elt F) (pW : Memref sig .scVector .hbm S16 .i32).view (m (pLoc d))
      (ReadAs.same.apply (View.read (Elt F) (lbW : Memref sig .scVector .vmem S16 .i32).view
        (View.write (Elt F) (lbW : Memref sig .scVector .vmem S16 .i32).view f2
          (ReadAs.same.apply (View.read (Elt F) (lW : Memref sig .scVector .hbm S16 .i32).view (m (lLoc d)))) Finset.univ))) Finset.univ
      = lAsP m d := by
  show View.write (Elt F) (View.whole main_v0_1_scv) (m (pLoc d))
      (View.read (Elt F) (View.whole cc0_scratch2) (View.write (Elt F) (View.whole cc0_scratch2) f2
        (View.read (Elt F) (View.whole main_arg1_scv) (m (lLoc d))) Finset.univ)) Finset.univ = _
  rw [View.write_whole_univ, View.write_whole_univ, View.read_whole, View.read_whole]

omit [FloatOps F] in
/-- A recorded wait at the kernel's own index keeps the waits admissible. -/
theorem waits_ok {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact .inr rfl
  · exact h p hp

theorem tile_body (hF : (K (F := F)).Facts) (O : CellTallies nD τ sig (HIx 1)) (W : Waits sig (HIx 1)) (hO : ∀ g, O g none = 0) :
    iprop(levAts (K (F := F)).L (K (F := F)).lev ∗ emp ∗ tileIn m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_materialize L aW (Memref.isWhole_whole _) lW (Memref.isWhole_whole _) oW (Memref.isWhole_whole _) pW (Memref.isWhole_whole _)
            b0W (Memref.isWhole_whole _) b1W (Memref.isWhole_whole _) lbW (Memref.isWhole_whole _)
            cc0_scratch3 cc0_scratch4 cc0_scratch5 cc0_scratch6 cc0_scoped0 cc0_scoped1)
          fun _ => iprop(tileOut m d L ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_materialize_eq_skeleton]; unfold cc0__sc_materialize_skel
  rw [(K (F := F)).scopedBufs_V hF d (cV L) (jV L), SparseCore.Cfg.scopedSems0_V (Val := Elt F) d (cV L) (jV L), ownSems0_V, ownBufs_V]
  unfold tileIn tileOut
  iintro ⟨#Hlv, -, ⟨⟨Ha0, Ha1, Ha2, Ha3⟩, ⟨Ho0, Ho1, Ho2, Ho3⟩, Hlen⟩, ⟨⟨⟨%f0, Hb0⟩, ⟨%f1, Hb1⟩, ⟨%f2, Hb2⟩⟩, Hbufs⟩, ⟨⟨Hs0, Hs1, Hs2, Hs3, Hs4, Hs5⟩, Hsems⟩, HO⟩
  ihave Hmw := ((K (F := F)).mayWaits_none (thr := V d (cV L) (jV L)) hO) $$ Hlv
  ihave Ha0 := (Entails.of_eq (pts_a0 (F := F) d L _).symm) $$ Ha0
  ihave Ha1 := (Entails.of_eq (pts_a1 (F := F) d L _).symm) $$ Ha1
  ihave Ha2 := (Entails.of_eq (pts_a2 (F := F) d L _).symm) $$ Ha2
  ihave Ha3 := (Entails.of_eq (pts_a3 (F := F) d L _).symm) $$ Ha3
  ihave Ho0 := (Entails.of_eq (pts_o0 (F := F) d L _).symm) $$ Ho0
  ihave Ho1 := (Entails.of_eq (pts_o1 (F := F) d L _).symm) $$ Ho1
  ihave Ho2 := (Entails.of_eq (pts_o2 (F := F) d L _).symm) $$ Ho2
  ihave Ho3 := (Entails.of_eq (pts_o3 (F := F) d L _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_lb (F := F) d L _).symm) $$ Hb2
  -- the fourteen chunk transfers and waits before the lengths' conditional
  sl_exec

  by_cases hL : isFirst L
  · -- tile (0, 0): the conditional is taken, the lengths go through the lengths buffer
    have hc : tile_body.sl.v102 L = 1#1 := (cond_iff L).mpr hL
    ihave Hlen := (Entails.of_eq (if_pos hL)) $$ Hlen
    icases Hlen with ⟨Hl, Hp⟩
    ihave Hl := (Entails.of_eq (pts_l (F := F) d L _).symm) $$ Hl
    ihave Hp := (Entails.of_eq (pts_p (F := F) d L _).symm) $$ Hp
    sl_exec
    sl_step
    have e0 : (heldO d L 0#32 (k0_off1_inb L 0) ((oLit L 0#32 (k0_off1_inb L 0)).view.writes (Elt F) (m (oLoc d)) [⟨Rect.whole S256x80, tile_body.sl.dma0_2 m d L f0⟩]) : sProp 𝕄)
        = oLoc d ↦[chunkSet L 0]{fullShare} aAsO m d :=
      (heldO_landed m d L 0#32 (k0_off1_inb L 0) (tile_body.sl.dma0_2 m d L f0) (fun y => pay_b0 m d L 0#32 (k0_off1_inb L 0) _ y)).trans (pts_o0 (F := F) d L _)
    have e1 : (heldO d L 256#32 (k0_off1_inb L 1) ((oLit L 256#32 (k0_off1_inb L 1)).view.writes (Elt F) (m (oLoc d)) [⟨Rect.whole S256x80, tile_body.sl.dma0_3 m d L f1⟩]) : sProp 𝕄)
        = oLoc d ↦[chunkSet L 1]{fullShare} aAsO m d :=
      (heldO_landed m d L 256#32 (k0_off1_inb L 1) (tile_body.sl.dma0_3 m d L f1) (fun y => pay_b1 m d L 256#32 (k0_off1_inb L 1) _ y)).trans (pts_o1 (F := F) d L _)
    have e2 : (heldO d L 512#32 (k0_off1_inb L 2) ((oLit L 512#32 (k0_off1_inb L 2)).view.writes (Elt F) (m (oLoc d)) [⟨Rect.whole S256x80, tile_body.sl.dma0_6 m d L f0⟩]) : sProp 𝕄)
        = oLoc d ↦[chunkSet L 2]{fullShare} aAsO m d :=
      (heldO_landed m d L 512#32 (k0_off1_inb L 2) (tile_body.sl.dma0_6 m d L f0) (fun y => pay_b0 m d L 512#32 (k0_off1_inb L 2) _ y)).trans (pts_o2 (F := F) d L _)
    have e3 : (heldO d L 768#32 (k0_off1_inb L 3) ((oLit L 768#32 (k0_off1_inb L 3)).view.writes (Elt F) (m (oLoc d)) [⟨Rect.whole S256x80, tile_body.sl.dma0_7 m d L f1⟩]) : sProp 𝕄)
        = oLoc d ↦[chunkSet L 3]{fullShare} aAsO m d :=
      (heldO_landed m d L 768#32 (k0_off1_inb L 3) (tile_body.sl.dma0_7 m d L f1) (fun y => pay_b1 m d L 768#32 (k0_off1_inb L 3) _ y)).trans (pts_o3 (F := F) d L _)
    ihave Ho0 := (Entails.of_eq e0) $$ Ho0
    ihave Ho1 := (Entails.of_eq e1) $$ Ho1
    ihave Ho2 := (Entails.of_eq e2) $$ Ho2
    ihave Ho3 := (Entails.of_eq e3) $$ Ho3
    ihave Ha0 := (Entails.of_eq (pts_a0 (F := F) d L _)) $$ Ha0
    ihave Ha1 := (Entails.of_eq (pts_a1 (F := F) d L _)) $$ Ha1
    ihave Ha2 := (Entails.of_eq (pts_a2 (F := F) d L _)) $$ Ha2
    ihave Ha3 := (Entails.of_eq (pts_a3 (F := F) d L _)) $$ Ha3
    ihave Hb0 := (Entails.of_eq (pts_b0 (F := F) d L _)) $$ Hb0
    ihave Hb1 := (Entails.of_eq (pts_b1 (F := F) d L _)) $$ Hb1
    ihave Hb2 := (Entails.of_eq (pts_lb (F := F) d L _)) $$ Hb2
    have ep : (View.loc (V d (cV L) (jV L)) (pW : Memref sig .scVector .hbm S16 .i32).view ↦{fullShare}
          View.write (Elt F) (pW : Memref sig .scVector .hbm S16 .i32).view (m (pLoc d)) (tile_body.sl.dma0_9 m d L f2) Finset.univ : sProp 𝕄)
        = pLoc d ↦{fullShare} lAsP m d :=
      (congrArg (fun g => (View.loc (V d (cV L) (jV L)) (pW : Memref sig .scVector .hbm S16 .i32).view ↦{fullShare} g : sProp 𝕄)) (len_lands m d L f2)).trans (pts_p (F := F) d L _)
    ihave Hp := (Entails.of_eq ep) $$ Hp
    ihave Hl := (Entails.of_eq (pts_l (F := F) d L _)) $$ Hl
    isplitl [Ha0 Ha1 Ha2 Ha3 Ho0 Ho1 Ho2 Ho3 Hl Hp]
    · isplitl [Ha0 Ha1 Ha2 Ha3]
      · isplitl [Ha0]; · iexact Ha0
        isplitl [Ha1]; · iexact Ha1
        isplitl [Ha2]; · iexact Ha2
        iexact Ha3
      isplitl [Ho0 Ho1 Ho2 Ho3]
      · isplitl [Ho0]; · iexact Ho0
        isplitl [Ho1]; · iexact Ho1
        isplitl [Ho2]; · iexact Ho2
        iexact Ho3
      iapply (Entails.of_eq (if_pos hL).symm)
      isplitl [Hl]; · iexact Hl
      iexact Hp
    isplitl [Hb0 Hb1 Hb2 Hbufs]
    · isplitl [Hb0 Hb1 Hb2]
      · isplitl [Hb0]; · iexists _; iexact Hb0
        isplitl [Hb1]; · iexists _; iexact Hb1
        iexists _; iexact Hb2
      iexact Hbufs
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    · ipureintro
      exact waits_ok (waits_ok (waits_ok (waits_ok (waits_ok (waits_ok (waits_ok (waits_ok (waits_ok (waits_ok (fun p hp => .inl hp))))))))))
  · -- every other tile: the conditional is skipped
    have hc : ¬ tile_body.sl.v102 L = 1#1 := fun h => hL ((cond_iff L).mp h)
    sl_exec
    sl_step
    have e0 : (heldO d L 0#32 (k0_off1_inb L 0) ((oLit L 0#32 (k0_off1_inb L 0)).view.writes (Elt F) (m (oLoc d)) [⟨Rect.whole S256x80, tile_body.sl.dma0_2 m d L f0⟩]) : sProp 𝕄)
        = oLoc d ↦[chunkSet L 0]{fullShare} aAsO m d :=
      (heldO_landed m d L 0#32 (k0_off1_inb L 0) (tile_body.sl.dma0_2 m d L f0) (fun y => pay_b0 m d L 0#32 (k0_off1_inb L 0) _ y)).trans (pts_o0 (F := F) d L _)
    have e1 : (heldO d L 256#32 (k0_off1_inb L 1) ((oLit L 256#32 (k0_off1_inb L 1)).view.writes (Elt F) (m (oLoc d)) [⟨Rect.whole S256x80, tile_body.sl.dma0_3 m d L f1⟩]) : sProp 𝕄)
        = oLoc d ↦[chunkSet L 1]{fullShare} aAsO m d :=
      (heldO_landed m d L 256#32 (k0_off1_inb L 1) (tile_body.sl.dma0_3 m d L f1) (fun y => pay_b1 m d L 256#32 (k0_off1_inb L 1) _ y)).trans (pts_o1 (F := F) d L _)
    have e2 : (heldO d L 512#32 (k0_off1_inb L 2) ((oLit L 512#32 (k0_off1_inb L 2)).view.writes (Elt F) (m (oLoc d)) [⟨Rect.whole S256x80, tile_body.sl.dma0_6 m d L f0⟩]) : sProp 𝕄)
        = oLoc d ↦[chunkSet L 2]{fullShare} aAsO m d :=
      (heldO_landed m d L 512#32 (k0_off1_inb L 2) (tile_body.sl.dma0_6 m d L f0) (fun y => pay_b0 m d L 512#32 (k0_off1_inb L 2) _ y)).trans (pts_o2 (F := F) d L _)
    have e3 : (heldO d L 768#32 (k0_off1_inb L 3) ((oLit L 768#32 (k0_off1_inb L 3)).view.writes (Elt F) (m (oLoc d)) [⟨Rect.whole S256x80, tile_body.sl.dma0_7 m d L f1⟩]) : sProp 𝕄)
        = oLoc d ↦[chunkSet L 3]{fullShare} aAsO m d :=
      (heldO_landed m d L 768#32 (k0_off1_inb L 3) (tile_body.sl.dma0_7 m d L f1) (fun y => pay_b1 m d L 768#32 (k0_off1_inb L 3) _ y)).trans (pts_o3 (F := F) d L _)
    ihave Ho0 := (Entails.of_eq e0) $$ Ho0
    ihave Ho1 := (Entails.of_eq e1) $$ Ho1
    ihave Ho2 := (Entails.of_eq e2) $$ Ho2
    ihave Ho3 := (Entails.of_eq e3) $$ Ho3
    ihave Ha0 := (Entails.of_eq (pts_a0 (F := F) d L _)) $$ Ha0
    ihave Ha1 := (Entails.of_eq (pts_a1 (F := F) d L _)) $$ Ha1
    ihave Ha2 := (Entails.of_eq (pts_a2 (F := F) d L _)) $$ Ha2
    ihave Ha3 := (Entails.of_eq (pts_a3 (F := F) d L _)) $$ Ha3
    ihave Hb0 := (Entails.of_eq (pts_b0 (F := F) d L _)) $$ Hb0
    ihave Hb1 := (Entails.of_eq (pts_b1 (F := F) d L _)) $$ Hb1
    ihave Hb2 := (Entails.of_eq (pts_lb (F := F) d L _)) $$ Hb2
    isplitl [Ha0 Ha1 Ha2 Ha3 Ho0 Ho1 Ho2 Ho3]
    · isplitl [Ha0 Ha1 Ha2 Ha3]
      · isplitl [Ha0]; · iexact Ha0
        isplitl [Ha1]; · iexact Ha1
        isplitl [Ha2]; · iexact Ha2
        iexact Ha3
      isplitl [Ho0 Ho1 Ho2 Ho3]
      · isplitl [Ho0]; · iexact Ho0
        isplitl [Ho1]; · iexact Ho1
        isplitl [Ho2]; · iexact Ho2
        iexact Ho3
      iapply (Entails.of_eq (if_neg hL).symm)
      iempintro
    isplitl [Hb0 Hb1 Hb2 Hbufs]
    · isplitl [Hb0 Hb1 Hb2]
      · isplitl [Hb0]; · iexists _; iexact Hb0
        isplitl [Hb1]; · iexists _; iexact Hb1
        iexists _; iexact Hb2
      iexact Hbufs
    isplitl [Hs0 Hs1 Hs2 Hs3 Hs4 Hs5 Hsems]
    · isplitl [Hs0 Hs1 Hs2 Hs3 Hs4 Hs5]
      · isplitl [Hs0]; · iexact Hs0
        isplitl [Hs1]; · iexact Hs1
        isplitl [Hs2]; · iexact Hs2
        isplitl [Hs3]; · iexact Hs3
        isplitl [Hs4]; · iexact Hs4
        iexact Hs5
      iexact Hsems
    iexists _; isplitr
    rotate_left
    · iexact HO
    · ipureintro
      exact waits_ok (waits_ok (waits_ok (waits_ok (waits_ok (waits_ok (waits_ok (waits_ok (fun p hp => .inl hp))))))))

end Tile

end Cert.Proof.IdealSide

end
-- ==== Proof.IdealLaunch.lean ====
/-
  The launch: from one tile's task to the whole program's run, and what the run leaves.

  The one call hands SparseCore c the hand-outs of its sixteen tiles and takes back their hand-backs;
  the 2 * 16 * 4 chunks are pairwise disjoint and cover the [16, 2048, 80] index space (an index's
  batch row names the subcore, its time step's thousand the core, the quarter of that the chunk), so
  the whole input and output arrays are exactly the tiles' chunks, and the lengths go to tile (0, 0)
  alone. After the call the output array holds the input's contents at every index and the output
  lengths the input lengths; the inputs are unchanged.
-/
import proofs.«216305_g5669356832350_cont_9to1_m_939_18_alg».proof.Proof.IdealBody

noncomputable section

namespace Cert.Proof.IdealSide

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The chunks tile the index space -/

theorem chunks_disjoint : ∀ t ∈ (Finset.univ : Finset (Fin (grid0.bound 0) × Fin (grid0.bound 1) × Fin 4)), ∀ t' ∈ (Finset.univ : Finset (Fin (grid0.bound 0) × Fin (grid0.bound 1) × Fin 4)), t ≠ t' →
    Disjoint (chunkSet (coordsV t.1 t.2.1) t.2.2) (chunkSet (coordsV t'.1 t'.2.1) t'.2.2) := by
  rintro ⟨c, s, r⟩ - ⟨c', s', r'⟩ - hne
  refine Finset.disjoint_left.mpr fun j h1 h2 => hne ?_
  dsimp only at h1 h2
  rw [mem_chunkSet] at h1 h2
  have hc : (coordsV c s (0 : Fin 2)).val = c.val := rfl
  have hs : (coordsV c s (1 : Fin 2)).val = s.val := rfl
  have hc' : (coordsV c' s' (0 : Fin 2)).val = c'.val := rfl
  have hs' : (coordsV c' s' (1 : Fin 2)).val = s'.val := rfl
  rw [hc, hs] at h1; rw [hc', hs'] at h2
  have hcl : c.val < 2 := c.isLt
  have hcl' : c'.val < 2 := c'.isLt
  have := r.isLt; have := r'.isLt
  have e1 : c.val = c'.val := by omega
  have e2 : s.val = s'.val := by omega
  have e3 : r.val = r'.val := by omega
  exact Prod.ext (Fin.ext e1) (Prod.ext (Fin.ext e2) (Fin.ext e3))

theorem chunks_cover : (Finset.univ : Finset (Fin (grid0.bound 0) × Fin (grid0.bound 1) × Fin 4)).biUnion (fun t => chunkSet (coordsV t.1 t.2.1) t.2.2) = Finset.univ := by
  ext j
  simp only [Finset.mem_biUnion, Finset.mem_univ, true_and, iff_true]
  have h0 : (j 0).val < 16 := (j 0).isLt
  have h1 : (j 1).val < 2048 := (j 1).isLt
  refine ⟨(⟨(j 1).val / 1024, by show (j 1).val / 1024 < 2; omega⟩, ⟨(j 0).val, h0⟩, ⟨(j 1).val % 1024 / 256, by omega⟩), ?_⟩
  rw [mem_chunkSet]
  show (j 0).val = (j 0).val ∧ (j 1).val / 1024 * 1024 + 256 * ((j 1).val % 1024 / 256) ≤ (j 1).val
    ∧ (j 1).val < (j 1).val / 1024 * 1024 + 256 * ((j 1).val % 1024 / 256) + 256
  omega

omit F in
theorem fin4_univ : (Finset.univ : Finset (Fin 4)) = {0, 1, 2, 3} := by decide

/-- An assertion additive over disjoint index sets, taken on the whole index space, is that assertion on every chunk
    of every tile. -/
theorem chunks_eq (pt : Finset S16x2048x80.Idx → sProp 𝕄)
    (hpt : ∀ (Kf : Fin (grid0.bound 0) × Fin (grid0.bound 1) × Fin 4 → Finset S16x2048x80.Idx),
      (∀ t ∈ (Finset.univ : Finset (Fin (grid0.bound 0) × Fin (grid0.bound 1) × Fin 4)), ∀ t' ∈ (Finset.univ : Finset (Fin (grid0.bound 0) × Fin (grid0.bound 1) × Fin 4)), t ≠ t' → Disjoint (Kf t) (Kf t')) →
        pt ((Finset.univ : Finset (Fin (grid0.bound 0) × Fin (grid0.bound 1) × Fin 4)).biUnion Kf) = bigSep Finset.univ fun t => pt (Kf t)) :
    (bigSep Finset.univ fun c : Fin (grid0.bound 0) => bigSep Finset.univ fun s : Fin (grid0.bound 1) =>
      iprop(pt (chunkSet (coordsV c s) 0) ∗ pt (chunkSet (coordsV c s) 1) ∗ pt (chunkSet (coordsV c s) 2) ∗ pt (chunkSet (coordsV c s) 3)))
      = pt Finset.univ := by
  rw [← chunks_cover, hpt _ chunks_disjoint, bigSep_univ_prod]
  refine bigSep_congr fun c _ => ?_
  rw [bigSep_univ_prod]
  refine bigSep_congr fun s _ => ?_
  rw [fin4_univ, SparseCore.bigSep_insert' (by decide), SparseCore.bigSep_insert' (by decide), SparseCore.bigSep_insert' (by decide), bigSep_singleton]

/-- Only tile (0, 0) is handed the lengths. -/
theorem first_only (X : sProp 𝕄) :
    (bigSep Finset.univ fun c : Fin (grid0.bound 0) => bigSep Finset.univ fun s : Fin (grid0.bound 1) => if isFirst (coordsV c s) then X else iprop(emp)) = X := by
  refine (bigSep_univ_prod (fun t : Fin (grid0.bound 0) × Fin (grid0.bound 1) => if isFirst (coordsV t.1 t.2) then X else iprop(emp))).symm.trans ?_
  refine (bigSep_filter Finset.univ (fun t : Fin (grid0.bound 0) × Fin (grid0.bound 1) => isFirst (coordsV t.1 t.2)) (fun _ => X)).symm.trans ?_
  rw [show (Finset.univ.filter fun t : Fin (grid0.bound 0) × Fin (grid0.bound 1) => isFirst (coordsV t.1 t.2)) = {((⟨0, by decide⟩ : Fin (grid0.bound 0)), (⟨0, by decide⟩ : Fin (grid0.bound 1)))} by decide, bigSep_singleton]

variable (m : (ℓ : Loc nD τ sig) → Buf (Elt F) ℓ) (ρ : Dev nD → PrngReg)

/-- A tile's share of the arrays, at given contents of the input and output arrays and a given lengths part. -/
def tileRes (d : Dev nD) (fa : Buf (Elt F) (aLoc d)) (fo : Buf (Elt F) (oLoc d)) (X : sProp 𝕄) (L : grid0.Coords) : sProp 𝕄 :=
  iprop(((aLoc d ↦[chunkSet L 0]{fullShare} fa) ∗ (aLoc d ↦[chunkSet L 1]{fullShare} fa)
      ∗ (aLoc d ↦[chunkSet L 2]{fullShare} fa) ∗ (aLoc d ↦[chunkSet L 3]{fullShare} fa))
    ∗ ((oLoc d ↦[chunkSet L 0]{fullShare} fo) ∗ (oLoc d ↦[chunkSet L 1]{fullShare} fo)
      ∗ (oLoc d ↦[chunkSet L 2]{fullShare} fo) ∗ (oLoc d ↦[chunkSet L 3]{fullShare} fo))
    ∗ (if isFirst L then X else iprop(emp)))

theorem tileIn_eq (d : Dev nD) (L : grid0.Coords) :
    tileIn m d L = tileRes d (m (aLoc d)) (m (oLoc d)) iprop((lLoc d ↦{fullShare} m (lLoc d)) ∗ (pLoc d ↦{fullShare} m (pLoc d))) L := rfl
theorem tileOut_eq (d : Dev nD) (L : grid0.Coords) :
    tileOut m d L = tileRes d (m (aLoc d)) (aAsO m d) iprop((lLoc d ↦{fullShare} m (lLoc d)) ∗ (pLoc d ↦{fullShare} lAsP m d)) L := rfl

/-- The input array whole is its chunks, over all tiles; -/
theorem a_chunks (d : Dev nD) (fa : Buf (Elt F) (aLoc d)) :
    (bigSep Finset.univ fun c : Fin (grid0.bound 0) => bigSep Finset.univ fun s : Fin (grid0.bound 1) =>
      iprop((aLoc d ↦[chunkSet (coordsV c s) 0]{fullShare} fa) ∗ (aLoc d ↦[chunkSet (coordsV c s) 1]{fullShare} fa)
        ∗ (aLoc d ↦[chunkSet (coordsV c s) 2]{fullShare} fa) ∗ (aLoc d ↦[chunkSet (coordsV c s) 3]{fullShare} fa)))
      = (aLoc d ↦{fullShare} fa : sProp 𝕄) :=
  chunks_eq (fun I => (aLoc d ↦[I]{fullShare} fa : sProp 𝕄))
    (fun Kf h => pointsTo_biUnion (ℓ := aLoc d) (q := fullShare) (f := fa) Finset.univ Kf h)
/-- and so is the output array. -/
theorem o_chunks (d : Dev nD) (fo : Buf (Elt F) (oLoc d)) :
    (bigSep Finset.univ fun c : Fin (grid0.bound 0) => bigSep Finset.univ fun s : Fin (grid0.bound 1) =>
      iprop((oLoc d ↦[chunkSet (coordsV c s) 0]{fullShare} fo) ∗ (oLoc d ↦[chunkSet (coordsV c s) 1]{fullShare} fo)
        ∗ (oLoc d ↦[chunkSet (coordsV c s) 2]{fullShare} fo) ∗ (oLoc d ↦[chunkSet (coordsV c s) 3]{fullShare} fo)))
      = (oLoc d ↦{fullShare} fo : sProp 𝕄) :=
  chunks_eq (fun I => (oLoc d ↦[I]{fullShare} fo : sProp 𝕄))
    (fun Kf h => pointsTo_biUnion (ℓ := oLoc d) (q := fullShare) (f := fo) Finset.univ Kf h)

/-- All the tiles' shares together are the two arrays whole and the lengths part. -/
theorem deal (d : Dev nD) (fa : Buf (Elt F) (aLoc d)) (fo : Buf (Elt F) (oLoc d)) (X : sProp 𝕄) :
    (bigSep Finset.univ fun c : Fin (grid0.bound 0) => bigSep Finset.univ fun s : Fin (grid0.bound 1) => tileRes d fa fo X (coordsV c s))
      = iprop((aLoc d ↦{fullShare} fa) ∗ (oLoc d ↦{fullShare} fo) ∗ X) := by
  have key : ∀ (A O Z : Fin (grid0.bound 0) → Fin (grid0.bound 1) → sProp 𝕄),
      (bigSep Finset.univ fun c => bigSep Finset.univ fun s => iprop(A c s ∗ O c s ∗ Z c s))
        = iprop((bigSep Finset.univ fun c => bigSep Finset.univ fun s => A c s)
            ∗ (bigSep Finset.univ fun c => bigSep Finset.univ fun s => O c s)
            ∗ (bigSep Finset.univ fun c => bigSep Finset.univ fun s => Z c s)) := by
    intro A O Z; simp only [bigSep_sep']
  unfold tileRes
  rw [key (fun c s => iprop((aLoc d ↦[chunkSet (coordsV c s) 0]{fullShare} fa) ∗ (aLoc d ↦[chunkSet (coordsV c s) 1]{fullShare} fa)
        ∗ (aLoc d ↦[chunkSet (coordsV c s) 2]{fullShare} fa) ∗ (aLoc d ↦[chunkSet (coordsV c s) 3]{fullShare} fa)))
      (fun c s => iprop((oLoc d ↦[chunkSet (coordsV c s) 0]{fullShare} fo) ∗ (oLoc d ↦[chunkSet (coordsV c s) 1]{fullShare} fo)
        ∗ (oLoc d ↦[chunkSet (coordsV c s) 2]{fullShare} fo) ∗ (oLoc d ↦[chunkSet (coordsV c s) 3]{fullShare} fo)))
      (fun c s => if isFirst (coordsV c s) then X else iprop(emp)),
    a_chunks, o_chunks, first_only]

/-! ## What the handshakes carry -/

/-- The tile that task i of SparseCore c is. -/
abbrev tileOf (q : Fin 1) (c : Fin ((K (F := F)).nCore q)) (i : Fin ((K (F := F)).nSub q)) : grid0.Coords :=
  coordsV ⟨c.val, lt_of_lt_of_le c.isLt ((K (F := F)).hCore q)⟩ ⟨i.val, lt_of_lt_of_le i.isLt ((K (F := F)).hSub q)⟩

/-- The call hands SparseCore c its tiles' hand-outs and takes back their hand-backs; a tile gets its own. -/
def P : (K (F := F)).Pay (nD := nD) (Val := Elt F) (Name := ℕ) (U := UU) where
  st := fun q d c => bigSep Finset.univ fun i : Fin ((K (F := F)).nSub q) => tileIn m d (tileOf q c i)
  dn := fun q d c => bigSep Finset.univ fun i : Fin ((K (F := F)).nSub q) => tileOut m d (tileOf q c i)
  go := fun q d c i => tileIn m d (tileOf q c i)
  td := fun q d c i => tileOut m d (tileOf q c i)
  x := fun _ _ => iprop(emp)

instance P_storable : (P (F := F) m).IsStorable where
  st q d c := by unfold P; infer_instance
  dn q d c := by unfold P; infer_instance
  go q d c i := by unfold P; infer_instance
  td q d c i := by unfold P; infer_instance

variable [FloatOps F]

/-! ## The launch theorem's obligations -/

theorem defs₀_vector (c : Fin τ.nSC) (s : Fin τ.nSub) :
    defs₀ (F := F) (.scVector c s) 0 ()
      = SparseCore.onTile hcore0 hsub0 (fun c s => cc0__sc_materialize (coordsV c s)
          aW (Memref.isWhole_whole _) lW (Memref.isWhole_whole _) oW (Memref.isWhole_whole _) pW (Memref.isWhole_whole _)
          b0W (Memref.isWhole_whole _) b1W (Memref.isWhole_whole _) lbW (Memref.isWhole_whole _)
          cc0_scratch3 cc0_scratch4 cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

theorem vecSplit : (K (F := F)).VecSplit' (P m) 0 := by
  intro d c
  show (bigSep Finset.univ fun i : Fin ((K (F := F)).nSub 0) => tileIn m d (tileOf 0 c i)) ⊢ |={Set.univ}=> iprop(
      (bigSep Finset.univ fun i : Fin ((K (F := F)).nSub 0) => tileIn m d (tileOf 0 c i))
      ∗ ((bigSep Finset.univ fun i : Fin ((K (F := F)).nSub 0) => tileOut m d (tileOf 0 c i))
          -∗ bigSep Finset.univ fun i : Fin ((K (F := F)).nSub 0) => tileOut m d (tileOf 0 c i)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (lLoc d ↦{fullShare} W main_arg1)
      ∗ (oLoc d ↦{fullShare} W main_v0_0) ∗ pLoc d ↦{fullShare} W main_v0_1) := by
  unfold unscopedBufs
  rw [show (Finset.univ.filter fun b : Ref sig .tc => ¬ b.isScoped) = {main_arg0, main_arg1, main_v0_0, main_v0_1} by decide,
    SparseCore.bigSep_insert' (by decide), SparseCore.bigSep_insert' (by decide), SparseCore.bigSep_insert' (by decide), bigSep_singleton]

/-- What the call takes for the two SparseCores: the four arrays whole; -/
theorem st0_eq (d : Dev nD) : (bigSep Finset.univ fun c : Fin ((K (F := F)).nCore 0) => (P m).st 0 d c)
    = iprop((aLoc d ↦{fullShare} m (aLoc d)) ∗ (oLoc d ↦{fullShare} m (oLoc d)) ∗ (lLoc d ↦{fullShare} m (lLoc d)) ∗ (pLoc d ↦{fullShare} m (pLoc d))) := by
  show (bigSep (Finset.univ : Finset (Fin (grid0.bound 0))) fun c => bigSep (Finset.univ : Finset (Fin (grid0.bound 1))) fun s =>
    tileRes d (m (aLoc d)) (m (oLoc d)) iprop((lLoc d ↦{fullShare} m (lLoc d)) ∗ (pLoc d ↦{fullShare} m (pLoc d))) (coordsV c s)) = _
  exact deal d _ _ _
/-- and what it hands back: the output array at the input's contents, the output lengths at the input lengths. -/
theorem dn0_eq (d : Dev nD) : (bigSep Finset.univ fun c : Fin ((K (F := F)).nCore 0) => (P m).dn 0 d c)
    = iprop((aLoc d ↦{fullShare} m (aLoc d)) ∗ (oLoc d ↦{fullShare} aAsO m d) ∗ (lLoc d ↦{fullShare} m (lLoc d)) ∗ (pLoc d ↦{fullShare} lAsP m d)) := by
  show (bigSep (Finset.univ : Finset (Fin (grid0.bound 0))) fun c => bigSep (Finset.univ : Finset (Fin (grid0.bound 1))) fun s =>
    tileRes d (m (aLoc d)) (aAsO m d) iprop((lLoc d ↦{fullShare} m (lLoc d)) ∗ (pLoc d ↦{fullShare} lAsP m d)) (coordsV c s)) = _
  exact deal d _ _ _

/-- What @main leaves the claim: the four arrays whole, the results at the arguments' contents. -/
abbrev FIN (d : Dev nD) : sProp 𝕄 :=
  iprop((aLoc d ↦{fullShare} m (aLoc d)) ∗ (oLoc d ↦{fullShare} aAsO m d) ∗ (lLoc d ↦{fullShare} m (lLoc d)) ∗ (pLoc d ↦{fullShare} lAsP m d))

/-- @main on device d's TensorCore: the one call, from the four arrays and back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hl, Ho, Hp⟩, -, -⟩, -⟩
  iapply ((K (F := F)).wp_run (D (F := F)) 𝒱 (EH := EH) (P := P m) κ d 0) $$ [Hst Ha Hl Ho Hp]
  isplitr; · iexact Hctx
  isplitl [Hst]; · iexact Hst
  isplitl [Ha Hl Ho Hp]
  · rw [st0_eq]
    isplitl [Ha]; · iexact Ha
    isplitl [Ho]; · iexact Ho
    isplitl [Hl]; · iexact Hl
    iexact Hp
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = aAsO m d ∧ s'.mem.mem (pLoc d) = lAsP m d ∧ s'.mem.mem (aLoc d) = m (aLoc d) ∧ s'.mem.mem (lLoc d) = m (lLoc d)

theorem hfin (d : Dev nD) (s' : Phys nD τ sig (Elt F)) : iprop(FIN m d ∗ SI s') ⊢ (⌜fq m d s'⌝ : sProp 𝕄) := by
  iintro ⟨⟨Ha, Ho, Hl, Hp⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := oLoc d) (I := Finset.univ) (q := fullShare) (f := aAsO m d))) $$ [HSI Ho]
  · isplitl [HSI] <;> iassumption
  icases H with ⟨%h2, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h3, HSI, -⟩
  ihave H := (SI_pointsTo_agree (st := s') (ℓ := pLoc d) (I := Finset.univ) (q := fullShare) (f := lAsP m d)) $$ [HSI Hp]
  · isplitl [HSI] <;> iassumption
  icases H with %h4
  ipureintro
  exact ⟨funext fun i => h2 i (Finset.mem_univ i), funext fun i => h4 i (Finset.mem_univ i),
    funext fun i => h1 i (Finset.mem_univ i), funext fun i => h3 i (Finset.mem_univ i)⟩

/-! ## The program's run -/

/-- After the run: the results hold the arguments' contents, the arguments are unchanged. -/
def QC : PUnit × MemSt nD τ sig (Elt F) → Prop := fun r => ∀ c : Dev nD,
  r.2.mem (oLoc c) = aAsO m c ∧ r.2.mem (pLoc c) = lAsP m c ∧ r.2.mem (aLoc c) = m (aLoc c) ∧ r.2.mem (lLoc c) = m (lLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.IdealSide

end
-- ==== Proof.RefRun.lean ====
/-
  The reference's run. The reference returns its two arguments as they are: its @main is the empty
  sequence of host operations, so every weakly fair execution ends at once with both argument arrays
  holding what they held at launch.
-/
import proofs.«216305_g5669356832350_cont_9to1_m_939_18_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations: none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- Every weakly fair execution of the reference terminates with both arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_arg0).trans (by first | rfl | after_results),
      (h c main_arg1).trans (by first | rfl | after_results)⟩)
    (run_seq scopedRefs_eq scopedSems_eq defs main (fun _ => ops) main_eq (fun _ => ops_sub) m ρ)

end Cert.Proof.RefRun

end
-- ==== Proof.lean ====
/-
  The kernel copies a [16, 2048, 80] array and a vector of 16 lengths; the reference returns both as
  they are. So the claim is that the copy is exact and touches nothing else.

  The kernel runs on 2 SparseCores x 16 vector subcores. Tile (c, s) owns batch row s and time steps
  c * 1024 .. c * 1024 + 1023 and moves them in four chunks of 256 time steps, input -> one of two
  staging buffers -> output, two chunks in flight; tile (0, 0) also moves the lengths through a
  small buffer. One tile's task is proved once at a symbolic tile (IdealBody / BitsBody): each of
  its six semaphores carries one transfer at a time and no buffer is touched while a transfer on it
  is pending, so every wait returns, and every output chunk ends holding, index by index, the
  input's entry at that index. The chunks of all tiles are pairwise disjoint and cover the index
  space, so the launch (IdealLaunch / BitsLaunch) deals the whole arrays out to the tiles and
  gathers them back: after the run the output array equals the input array, the output lengths
  equal the input lengths, and the inputs are unchanged. No arithmetic is done on the data, so the
  same argument is the word-level kernel's frame and, read on the extended reals, the idealized
  kernel's frame and value; the precondition on the inputs is never used. The reference's @main is
  empty (RefRun). The idealization rewrote nothing, so there is nothing to preserve.
-/
import proofs.«216305_g5669356832350_cont_9to1_m_939_18_alg».proof.Defs
import proofs.«216305_g5669356832350_cont_9to1_m_939_18_alg».proof.Proof.Gen.Kernel
import proofs.«216305_g5669356832350_cont_9to1_m_939_18_alg».proof.Proof.Gen.Kernel.Skeleton
import proofs.«216305_g5669356832350_cont_9to1_m_939_18_alg».proof.Proof.Gen.KernelIdeal
import proofs.«216305_g5669356832350_cont_9to1_m_939_18_alg».proof.Proof.Gen.KernelIdeal.Skeleton
import proofs.«216305_g5669356832350_cont_9to1_m_939_18_alg».proof.Proof.Gen.ReferenceIdeal
import proofs.«216305_g5669356832350_cont_9to1_m_939_18_alg».proof.Proof.Gen.Pre_input_domain
import proofs.«216305_g5669356832350_cont_9to1_m_939_18_alg».proof.Proof.BitsLaunch
import proofs.«216305_g5669356832350_cont_9to1_m_939_18_alg».proof.Proof.IdealLaunch
import proofs.«216305_g5669356832350_cont_9to1_m_939_18_alg».proof.Proof.RefRun
import Idealize.ShloMosaic.Adequacy
import Idealize.ShloMosaic.Init

noncomputable section

namespace Cert.Proof

open Idealize.ShloMosaic Idealize.SL.Sem

/-- The word-level kernel runs to the end and leaves its arguments as they were: its run, the results forgotten. -/
theorem frame_kernel : Cert.frame_Kernel := fun m ρ _ =>
  (θ_run Cert.Kernel.defs _ _).mono (fun _ h c => ⟨(h c).2.2.1, (h c).2.2.2⟩) (Cert.Proof.BitsSide.run_main (F := Bits) m ρ)

/-- The same of the idealized kernel. -/
theorem frame_kernelIdeal : Cert.frame_KernelIdeal := fun m ρ _ =>
  (θ_run Cert.KernelIdeal.defs _ _).mono (fun _ h c => ⟨(h c).2.2.1, (h c).2.2.2⟩) (Cert.Proof.IdealSide.run_main (F := Ideal) m ρ)

/-- The reference does nothing. -/
theorem frame_reference : Cert.frame_ReferenceIdeal := fun m ρ _ => Cert.Proof.RefRun.run (F := Ideal) m ρ

/-- Both programs end with the arguments' launch contents as their results: the kernel because every output chunk
    holds the input's entries and tile (0, 0) copied the lengths, the reference because its results are its
    arguments; the two memories agree on the arguments. -/
theorem algebraic : Cert.algebraic_KernelIdeal_ReferenceIdeal := fun m ρ m' ρ' _ hagree =>
  ⟨fun c => Cert.Proof.IdealSide.aAsO m c, fun c => Cert.Proof.IdealSide.lAsP m c,
    (θ_run Cert.KernelIdeal.defs _ _).mono (fun _ h c => ⟨(h c).1, (h c).2.1, (h c).2.2.1, (h c).2.2.2⟩)
      (Cert.Proof.IdealSide.run_main (F := Ideal) m ρ),
    (θ_run Cert.ReferenceIdeal.defs _ _).mono
      (fun _ h c => ⟨(h c).1.trans (hagree c).1, (h c).2.trans (hagree c).2, (h c).1, (h c).2⟩)
      (Cert.Proof.RefRun.run (F := Ideal) m' ρ')⟩

theorem claim : Cert.Claim :=
  ⟨Cert.Kernel.Gen.facts, Cert.KernelIdeal.Gen.facts, Cert.ReferenceIdeal.Gen.facts, Cert.Pre_input_domain.Gen.facts,
    frame_kernel, frame_kernelIdeal, frame_reference, trivial, algebraic⟩

end Cert.Proof

end
